-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S1024x256 : Shape := ⟨2, ![1024, 256]⟩
abbrev S1024 : Shape := ⟨1, ![1024]⟩
abbrev S2048x1024 : Shape := ⟨2, ![2048, 1024]⟩
abbrev S2048 : Shape := ⟨1, ![2048]⟩
abbrev S4096x2048 : Shape := ⟨2, ![4096, 2048]⟩
abbrev S4096 : Shape := ⟨1, ![4096]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  main_v53

def fn_part2 {F : FTy → Type} [FloatOps F] (main_arg9 : FVec F S2048 .f32) (main_arg10 : FVec F S2048 .f32) (main_arg11 : FVec F S4096x2048 .f32) (main_arg12 : FVec F S4096 .f32) (main_v33 : IVec S_ 1) : IVec S_ 1 :=
  let main_v34 : FVec F S2048 .f32 := Host.absf main_arg9
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg10
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x2048 .f32 := Host.absf main_arg11
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S4096 .f32 := Host.absf main_arg12
  let main_cst_18 : FVec F S_ .f32 := constant S_ .f32 0x7F800000#32
  let main_v50 : FVec F S4096 .f32 := broadcastInDim S4096 ![] bcast_S_S4096 main_cst_18
  fn_part3 (F := F) main_v48 main_v49 main_v50

def fn_part1 {F : FTy → Type} [FloatOps F] (main_arg5 : FVec F S1024 .f32) (main_arg6 : FVec F S2048x1024 .f32) (main_arg7 : FVec F S2048 .f32) (main_arg9 : FVec F S2048 .f32) (main_arg10 : FVec F S2048 .f32) (main_arg11 : FVec F S4096x2048 .f32) (main_arg12 : FVec F S4096 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg6
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S8192x256 .f32) (main_arg1 : FVec F S1024x256 .f32) (main_arg2 : FVec F S1024 .f32) (main_arg3 : IVec S1024x256 32) (main_arg4 : FVec F S1024 .f32) (main_arg5 : FVec F S1024 .f32) (main_arg6 : FVec F S2048x1024 .f32) (main_arg7 : FVec F S2048 .f32) (main_arg8 : IVec S2048x1024 32) (main_arg9 : FVec F S2048 .f32) (main_arg10 : FVec F S2048 .f32) (main_arg11 : FVec F S4096x2048 .f32) (main_arg12 : FVec F S4096 .f32) (main_arg13 : IVec S4096x2048 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg9 main_arg10 main_arg11 main_arg12 main_v13 main_v16
-- ==== Kernel.lean ====
abbrev S8192x256 : Shape := ⟨2, ![8192, 256]⟩
abbrev S1024x256 : Shape := ⟨2, ![1024, 256]⟩
abbrev S1024 : Shape := ⟨1, ![1024]⟩
abbrev S2048x1024 : Shape := ⟨2, ![2048, 1024]⟩
abbrev S2048 : Shape := ⟨1, ![2048]⟩
abbrev S4096x2048 : Shape := ⟨2, ![4096, 2048]⟩
abbrev S4096 : Shape := ⟨1, ![4096]⟩
abbrev S256x1024 : Shape := ⟨2, ![256, 1024]⟩
abbrev S8192x1024 : Shape := ⟨2, ![8192, 1024]⟩
abbrev S256x512 : Shape := ⟨2, ![256, 512]⟩
abbrev S512 : Shape := ⟨1, ![512]⟩
abbrev S8192x512 : Shape := ⟨2, ![8192, 512]⟩
abbrev S1x512 : Shape := ⟨2, ![1, 512]⟩
abbrev S1024x2048 : Shape := ⟨2, ![1024, 2048]⟩
abbrev S8192x2048 : Shape := ⟨2, ![8192, 2048]⟩
abbrev S256 : Shape := ⟨1, ![256]⟩
abbrev S1x256 : Shape := ⟨2, ![1, 256]⟩
abbrev S2048x4096 : Shape := ⟨2, ![2048, 4096]⟩
abbrev S8192x4096 : Shape := ⟨2, ![8192, 4096]⟩
abbrev S2048x2048 : Shape := ⟨2, ![2048, 2048]⟩
abbrev S2048x512 : Shape := ⟨2, ![2048, 512]⟩

abbrev nBuf : Space → Nat
  | .hbm => 28
  | .vmem => 30
  | .smem => 0
  | _ => 0

abbrev bufTy : (tb : Table) → Fin (tcTables nBuf tb) → BufTy
  | .hbm, ⟨0, _⟩ => ⟨S8192x256, .f32⟩
  | .hbm, ⟨1, _⟩ => ⟨S1024x256, .f32⟩
  | .hbm, ⟨2, _⟩ => ⟨S1024, .f32⟩
  | .hbm, ⟨3, _⟩ => ⟨S1024x256, .i32⟩
  | .hbm, ⟨4, _⟩ => ⟨S1024, .f32⟩
  | .hbm, ⟨5, _⟩ => ⟨S1024, .f32⟩
  | .hbm, ⟨6, _⟩ => ⟨S2048x1024, .f32⟩
  | .hbm, ⟨7, _⟩ => ⟨S2048, .f32⟩
  | .hbm, ⟨8, _⟩ => ⟨S2048x1024, .i32⟩
  | .hbm, ⟨9, _⟩ => ⟨S2048, .f32⟩
  | .hbm, ⟨10, _⟩ => ⟨S2048, .f32⟩
  | .hbm, ⟨11, _⟩ => ⟨S4096x2048, .f32⟩
  | .hbm, ⟨12, _⟩ => ⟨S4096, .f32⟩
  | .hbm, ⟨13, _⟩ => ⟨S4096x2048, .i32⟩
  | .hbm, ⟨14, _⟩ => ⟨S1024x256, .f32⟩
  | .hbm, ⟨15, _⟩ => ⟨S1024x256, .f32⟩
  | .hbm, ⟨16, _⟩ => ⟨S1024x256, .bf16⟩
  | .hbm, ⟨17, _⟩ => ⟨S256x1024, .bf16⟩
  | .hbm, ⟨18, _⟩ => ⟨S8192x1024, .bf16⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S1024x2048, .bf16⟩
  | .hbm, ⟨23, _⟩ => ⟨S8192x2048, .f32⟩
  | .hbm, ⟨24, _⟩ => ⟨S4096x2048, .f32⟩
  | .hbm, ⟨25, _⟩ => ⟨S4096x2048, .f32⟩
  | .hbm, ⟨26, _⟩ => ⟨S2048x4096, .f32⟩
  | .hbm, ⟨27, _⟩ => ⟨S8192x4096, .f32⟩
  | .local _ .vmem, ⟨0, _⟩ => ⟨S8192x256, .f32⟩
  | .local _ .vmem, ⟨1, _⟩ => ⟨S256x512, .bf16⟩
  | .local _ .vmem, ⟨2, _⟩ => ⟨S256x512, .bf16⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S8192x512, .bf16⟩
  | .local _ .vmem, ⟨10, _⟩ => ⟨S8192x512, .bf16⟩
  | .local _ .vmem, ⟨11, _⟩ => ⟨S8192x1024, .bf16⟩
  | .local _ .vmem, ⟨12, _⟩ => ⟨S1024x256, .bf16⟩
  | .local _ .vmem, ⟨13, _⟩ => ⟨S1024x256, .bf16⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S8192x256, .f32⟩
  | .local _ .vmem, ⟨21, _⟩ => ⟨S8192x256, .f32⟩
  | .local _ .vmem, ⟨22, _⟩ => ⟨S2048x2048, .f32⟩
  | .local _ .vmem, ⟨23, _⟩ => ⟨S2048x2048, .f32⟩
  | .local _ .vmem, ⟨24, _⟩ => ⟨S2048x512, .f32⟩
  | .local _ .vmem, ⟨25, _⟩ => ⟨S2048x512, .f32⟩
  | .local _ .vmem, ⟨26, _⟩ => ⟨S512, .f32⟩
  | .local _ .vmem, ⟨27, _⟩ => ⟨S512, .f32⟩
  | .local _ .vmem, ⟨28, _⟩ => ⟨S2048x512, .f32⟩
  | .local _ .vmem, ⟨29, _⟩ => ⟨S2048x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S8192x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8192x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  transposes_S1024x256_S256x1024_1_0 : S1024x256.Transposes [1, 0] S256x1024
  inb_S8192x256_S8192x256_0_0 : ∀ a, (![0, 0] : Fin 2 → Nat) a + S8192x256.size a ≤ S8192x256.size a
  h_S8192x256 : 0 < S8192x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S8192x512 : S1x512.Broadcasts S8192x512
  reduces_S8192x512_S512 : S8192x512.Reduces [0] S512
  inb_S8192x512_S8192x512_0_0 : ∀ a, (![0, 0] : Fin 2 → Nat) a + S8192x512.size a ≤ S8192x512.size a
  h_S8192x512 : 0 < S8192x512.numel
  packedbf16_S8192x512_S8192x512_0_0 : (Rect.unit (s := S8192x512) ![0, 0] S8192x512.size inb_S8192x512_S8192x512_0_0).PackedRows (EltTy.packing .bf16)
  transposes_S2048x1024_S1024x2048_1_0 : S2048x1024.Transposes [1, 0] S1024x2048
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  reduces_S8192x256_S256 : S8192x256.Reduces [0] S256
  transposes_S4096x2048_S2048x4096_1_0 : S4096x2048.Transposes [1, 0] S2048x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  dot_S8192x256_S256x512_S8192x512_1_0_0_1_n_n_wf : DotDims.WF S8192x256 S256x512 S8192x512 [1] [0] [0] [1] [] []
  dot_S8192x1024_S1024x256_S8192x256_1_0_0_1_n_n_wf : DotDims.WF S8192x1024 S1024x256 S8192x256 [1] [0] [0] [1] [] []
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x1024.size a
  hwx0_1 : ∀ i : grid0.Coords, EltTy.bits .bf16 = 32 ∨ (Rect.block (s := S256x1024) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S1024.size a
  hwx0_2 : ∀ i : grid0.Coords, EltTy.bits .f32 = 32 ∨ (Rect.block (s := S1024) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S1024.size a
  hwx0_3 : ∀ i : grid0.Coords, EltTy.bits .f32 = 32 ∨ (Rect.block (s := S1024) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S1024.size a
  hwx0_4 : ∀ i : grid0.Coords, EltTy.bits .f32 = 32 ∨ (Rect.block (s := S1024) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x512.size a ≤ S8192x1024.size a
  hwx0_5 : ∀ i : grid0.Coords, EltTy.bits .bf16 = 32 ∨ (Rect.block (s := S8192x1024) S8192x512.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x1024.size a ≤ S8192x1024.size a
  hwx1_0 : ∀ i : grid1.Coords, EltTy.bits .bf16 = 32 ∨ (Rect.block (s := S8192x1024) S8192x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x2048.size a
  hwx1_1 : ∀ i : grid1.Coords, EltTy.bits .bf16 = 32 ∨ (Rect.block (s := S1024x2048) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S2048.size a
  hwx1_2 : ∀ i : grid1.Coords, EltTy.bits .f32 = 32 ∨ (Rect.block (s := S2048) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S2048.size a
  hwx1_3 : ∀ i : grid1.Coords, EltTy.bits .f32 = 32 ∨ (Rect.block (s := S2048) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S2048.size a
  hwx1_4 : ∀ i : grid1.Coords, EltTy.bits .f32 = 32 ∨ (Rect.block (s := S2048) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x256.size a ≤ S8192x2048.size a
  hwx1_5 : ∀ i : grid1.Coords, EltTy.bits .f32 = 32 ∨ (Rect.block (s := S8192x2048) S8192x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x2048.size a
  hwx2_0 : ∀ i : grid2.Coords, EltTy.bits .f32 = 32 ∨ (Rect.block (s := S8192x2048) S2048x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x4096.size a
  hwx2_1 : ∀ i : grid2.Coords, EltTy.bits .f32 = 32 ∨ (Rect.block (s := S2048x4096) S2048x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S4096.size a
  hwx2_2 : ∀ i : grid2.Coords, EltTy.bits .f32 = 32 ∨ (Rect.block (s := S4096) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S8192x4096.size a
  hwx2_3 : ∀ i : grid2.Coords, EltTy.bits .f32 = 32 ∨ (Rect.block (s := S8192x4096) S2048x512.size (cc2_transform_3 i) (hinb2_3 i)).WholeWords (EltTy.packing .f32)

variable [Facts₀]

def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_arg0) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8192x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S8192x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S8192x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v9) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x256 : Shape := ⟨2, ![8192, 256]⟩
abbrev S1024x256 : Shape := ⟨2, ![1024, 256]⟩
abbrev S1024 : Shape := ⟨1, ![1024]⟩
abbrev S2048x1024 : Shape := ⟨2, ![2048, 1024]⟩
abbrev S2048 : Shape := ⟨1, ![2048]⟩
abbrev S4096x2048 : Shape := ⟨2, ![4096, 2048]⟩
abbrev S4096 : Shape := ⟨1, ![4096]⟩
abbrev S8192x1024 : Shape := ⟨2, ![8192, 1024]⟩
abbrev S1x1024 : Shape := ⟨2, ![1, 1024]⟩
abbrev S_ : Shape := ⟨0, ![]⟩
abbrev S8192x2048 : Shape := ⟨2, ![8192, 2048]⟩
abbrev S1x2048 : Shape := ⟨2, ![1, 2048]⟩
abbrev S8192x4096 : Shape := ⟨2, ![8192, 4096]⟩
abbrev S1x4096 : Shape := ⟨2, ![1, 4096]⟩

abbrev nBuf : Space → Nat
  | .hbm => 126
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S1024x256, .f32⟩
  | .hbm, ⟨2, _⟩ => ⟨S1024, .f32⟩
  | .hbm, ⟨3, _⟩ => ⟨S1024x256, .i32⟩
  | .hbm, ⟨4, _⟩ => ⟨S1024, .f32⟩
  | .hbm, ⟨5, _⟩ => ⟨S1024, .f32⟩
  | .hbm, ⟨6, _⟩ => ⟨S2048x1024, .f32⟩
  | .hbm, ⟨7, _⟩ => ⟨S2048, .f32⟩
  | .hbm, ⟨8, _⟩ => ⟨S2048x1024, .i32⟩
  | .hbm, ⟨9, _⟩ => ⟨S2048, .f32⟩
  | .hbm, ⟨10, _⟩ => ⟨S2048, .f32⟩
  | .hbm, ⟨11, _⟩ => ⟨S4096x2048, .f32⟩
  | .hbm, ⟨12, _⟩ => ⟨S4096, .f32⟩
  | .hbm, ⟨13, _⟩ => ⟨S4096x2048, .i32⟩
  | .hbm, ⟨14, _⟩ => ⟨S1024x256, .f32⟩
  | .hbm, ⟨15, _⟩ => ⟨S1024x256, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .i32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S2048x1024, .f32⟩
  | .hbm, ⟨68, _⟩ => ⟨S2048x1024, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S2048, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S_, .i32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S_, .f32⟩
  | .hbm, ⟨83, _⟩ => ⟨S1x2048, .f32⟩
  | .hbm, ⟨84, _⟩ => ⟨S1x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S2048, .f32⟩
  | .hbm, ⟨93, _⟩ => ⟨S2048, .f32⟩
  | .hbm, ⟨94, _⟩ => ⟨S2048, .f32⟩
  | .hbm, ⟨95, _⟩ => ⟨S_, .f32⟩
  | .hbm, ⟨96, _⟩ => ⟨S_, .i1⟩
  | .hbm, ⟨97, _⟩ => ⟨S_, .f32⟩
  | .hbm, ⟨98, _⟩ => ⟨S_, .f32⟩
  | .hbm, ⟨99, _⟩ => ⟨S2048, .f32⟩
  | .hbm, ⟨100, _⟩ => ⟨S2048, .f32⟩
  | .hbm, ⟨101, _⟩ => ⟨S1x2048, .f32⟩
  | .hbm, ⟨102, _⟩ => ⟨S8192x2048, .f32⟩
  | .hbm, ⟨103, _⟩ => ⟨S8192x2048, .f32⟩
  | .hbm, ⟨104, _⟩ => ⟨S_, .f32⟩
  | .hbm, ⟨105, _⟩ => ⟨S2048, .f32⟩
  | .hbm, ⟨106, _⟩ => ⟨S2048, .f32⟩
  | .hbm, ⟨107, _⟩ => ⟨S2048, .f32⟩
  | .hbm, ⟨108, _⟩ => ⟨S1x2048, .f32⟩
  | .hbm, ⟨109, _⟩ => ⟨S8192x2048, .f32⟩
  | .hbm, ⟨110, _⟩ => ⟨S8192x2048, .f32⟩
  | .hbm, ⟨111, _⟩ => ⟨S1x2048, .f32⟩
  | .hbm, ⟨112, _⟩ => ⟨S8192x2048, .f32⟩
  | .hbm, ⟨113, _⟩ => ⟨S8192x2048, .f32⟩
  | .hbm, ⟨114, _⟩ => ⟨S1x2048, .f32⟩
  | .hbm, ⟨115, _⟩ => ⟨S8192x2048, .f32⟩
  | .hbm, ⟨116, _⟩ => ⟨S8192x2048, .f32⟩
  | .hbm, ⟨117, _⟩ => ⟨S_, .f32⟩
  | .hbm, ⟨118, _⟩ => ⟨S8192x2048, .f32⟩
  | .hbm, ⟨119, _⟩ => ⟨S8192x2048, .f32⟩
  | .hbm, ⟨120, _⟩ => ⟨S4096x2048, .f32⟩
  | .hbm, ⟨121, _⟩ => ⟨S4096x2048, .f32⟩
  | .hbm, ⟨122, _⟩ => ⟨S8192x4096, .f32⟩
  | .hbm, ⟨123, _⟩ => ⟨S1x4096, .f32⟩
  | .hbm, ⟨124, _⟩ => ⟨S8192x4096, .f32⟩
  | .hbm, ⟨125, _⟩ => ⟨S8192x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_1 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_call1_cst : Ref sig .tc := ⟨.hbm, 64, rfl⟩
abbrev main_call1_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_2 : Ref sig .tc := ⟨.hbm, 73, rfl⟩
abbrev main_v32 : Ref sig .tc := ⟨.hbm, 74, rfl⟩
abbrev main_cst_3 : Ref sig .tc := ⟨.hbm, 75, rfl⟩
abbrev main_v33 : Ref sig .tc := ⟨.hbm, 76, rfl⟩
abbrev main_v34 : Ref sig .tc := ⟨.hbm, 77, rfl⟩
abbrev main_c_4 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_cst_2 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_cst_3 : Ref sig .tc := ⟨.hbm, 95, rfl⟩
abbrev main_call2_v12 : Ref sig .tc := ⟨.hbm, 96, rfl⟩
abbrev main_call2_cst_4 : Ref sig .tc := ⟨.hbm, 97, rfl⟩
abbrev main_call2_call0_v0 : Ref sig .tc := ⟨.hbm, 98, rfl⟩
abbrev main_call2_call0_v1 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_5 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_call3_cst : Ref sig .tc := ⟨.hbm, 117, rfl⟩
abbrev main_call3_v0 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S1024_d0 : S8192x1024.ReducesTo [0] S1024
  h_S_ : 0 < S_.numel
  bcast_S_S1024 : S_.BroadcastsInDim S1024 (![] : Fin 0 → Fin S1024.rank)
  bcast_S_S1x1024 : S_.BroadcastsInDim S1x1024 (![] : Fin 0 → Fin S1x1024.rank)
  bcast_S_S8192x1024 : S_.BroadcastsInDim S8192x1024 (![] : Fin 0 → Fin S8192x1024.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S2048_d0 : S8192x2048.ReducesTo [0] S2048
  bcast_S_S2048 : S_.BroadcastsInDim S2048 (![] : Fin 0 → Fin S2048.rank)
  bcast_S_S1x2048 : S_.BroadcastsInDim S1x2048 (![] : Fin 0 → Fin S1x2048.rank)
  bcast_S_S8192x2048 : S_.BroadcastsInDim S8192x2048 (![] : Fin 0 → Fin S8192x2048.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x256_S1024x256_S8192x1024_1_1_0_0_n_n_wf : DotDims.WF S8192x256 S1024x256 S8192x1024 [1] [1] [0] [0] [] []
  dot_S8192x1024_S2048x1024_S8192x2048_1_1_0_0_n_n_wf : DotDims.WF S8192x1024 S2048x1024 S8192x2048 [1] [1] [0] [0] [] []
  dot_S8192x2048_S4096x2048_S8192x4096_1_1_0_0_n_n_wf : DotDims.WF S8192x2048 S4096x2048 S8192x4096 [1] [1] [0] [0] [] []

variable [Facts₀]

def dot_S8192x256_S1024x256_S8192x1024_1_1_0_0_n_n : DotDims S8192x256 S1024x256 S8192x1024 where
  lhsContracting := [1]
  rhsContracting := [1]
  lhsNonContracting := [0]
  rhsNonContracting := [0]
  lhsBatch := []
  rhsBatch := []
  wf := dot_S8192x256_S1024x256_S8192x1024_1_1_0_0_n_n_wf
def dot_S8192x1024_S2048x1024_S8192x2048_1_1_0_0_n_n : DotDims S8192x1024 S2048x1024 S8192x2048 where
  lhsContracting := [1]
  rhsContracting := [1]
  lhsNonContracting := [0]
  rhsNonContracting := [0]
  lhsBatch := []
  rhsBatch := []
  wf := dot_S8192x1024_S2048x1024_S8192x2048_1_1_0_0_n_n_wf
def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.KRun.lean ====
/-
  The idealized kernel's run with its result buffer named. The program is three kernel regions among stretches of
  host operations; every weakly fair execution terminates, and at the end every unscoped buffer holds the contents
  the fold through the segments gives it: the result buffer what the third region's write-backs leave in it, each
  argument array its launch contents.
-/
import proofs.«143171_j21096879358070_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last segment
    boundary's contents and the argument arrays end as launched. -/
theorem run : θ_run defs (onTc (τ := τ) (main (F := F))) ⟨m, fun _ => 0, ρ⟩ (fun r => ∀ c : Dev nD,
      r.2.mem ((c.tc : Thread nD τ).loc main_v13) = W6 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v13 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.KRun

end
-- ==== Proof.Mlp.lean ====
/-
  The network both programs compute, written once on the extended reals.

  A masked linear layer sends a batch `x : B × K` through weights `w : N × K` (already multiplied by their 0/1 mask)
  and a bias: entry `(i, n)` is `(∑ₖ x i k · w n k) + b n`. Batch normalisation works column by column over the whole
  batch: the column's mean is its sum divided by the batch size, its variance the mean of the squared deviations, and
  every entry is centred, scaled by `rsqrt (variance + ε)`, by `γ` and shifted by `β`; a relu (the maximum with zero)
  follows. The network is linear, normalise-and-relu, linear, normalise-and-relu, linear.

  The batch size, `ε` and the relu's zero are kept as the binary words both programs print: the same word on both
  sides is never evaluated.
-/
import Idealize.ShloMosaic.PureOps.Ideal
import Idealize.ShloMosaic.Lib.ValueIdx

noncomputable section

namespace Cert.Mlp

open Idealize.ShloMosaic Idealize.ShloMosaic.ValueIdx

/-- The batch size, as the word both programs divide by (the f32 pattern of 8192). -/
abbrev cB : EReal := Ideal.ofBits .f32 0x46000000#32
/-- The variance's guard `ε`, as the word both programs add (the f32 pattern nearest 1e-5). -/
abbrev eps : EReal := Ideal.ofBits .f32 0x3727C5AC#32
/-- The relu's floor, as the word both programs take the maximum with. -/
abbrev floor0 : EReal := Ideal.ofBits .f32 0x00000000#32

variable {B K N : ℕ}

/-- A linear layer: entry `(i, n)` is `(∑ₖ x i k · w n k) + b n`. -/
def lin (x : Fin B → Fin K → EReal) (w : Fin N → Fin K → EReal) (b : Fin N → EReal) (i : Fin B) (n : Fin N) : EReal :=
  (∑ k : Fin K, x i k * w n k) + b n

/-- A column's mean over the batch. -/
def colMean (h : Fin B → Fin N → EReal) (n : Fin N) : EReal :=
  Ideal.div (∑ i : Fin B, h i n) cB

/-- A column's (biased) variance over the batch: the mean of the squared deviations from the column's mean. -/
def colVar (h : Fin B → Fin N → EReal) (n : Fin N) : EReal :=
  Ideal.div (∑ i : Fin B, (h i n - colMean h n) * (h i n - colMean h n)) cB

/-- Batch normalisation with scale `g` and shift `be`, then relu. -/
def bnRelu (h : Fin B → Fin N → EReal) (g be : Fin N → EReal) (i : Fin B) (n : Fin N) : EReal :=
  max ((h i n - colMean h n) * Ideal.rsqrt (colVar h n + eps) * g n + be n) floor0

/-- A weight matrix times its integer mask, entry by entry. -/
def masked (W : (⟨2, ![N, K]⟩ : Shape).Idx → EReal) (M : (⟨2, ![N, K]⟩ : Shape).Idx → BitVec 32) (n : Fin N) (k : Fin K) : EReal :=
  W (ix2 n k) * (((M (ix2 n k)).toInt : ℝ) : EReal)

/-- The first two layers: linear, normalise, relu. -/
def hidden (x : Fin B → Fin K → EReal) (w : Fin N → Fin K → EReal) (b g be : Fin N → EReal) : Fin B → Fin N → EReal :=
  bnRelu (lin x w b) g be

/-- The whole network as an [8192, 4096] array of the fourteen argument arrays, in the programs' argument order: the
    input, then per layer the weights, the bias, the mask and (for the two normalised layers) the scale and the shift. -/
def net (x : (⟨2, ![8192, 256]⟩ : Shape).Idx → EReal)
    (W1 : (⟨2, ![1024, 256]⟩ : Shape).Idx → EReal) (b1 : (⟨1, ![1024]⟩ : Shape).Idx → EReal)
    (M1 : (⟨2, ![1024, 256]⟩ : Shape).Idx → BitVec 32) (g1 be1 : (⟨1, ![1024]⟩ : Shape).Idx → EReal)
    (W2 : (⟨2, ![2048, 1024]⟩ : Shape).Idx → EReal) (b2 : (⟨1, ![2048]⟩ : Shape).Idx → EReal)
    (M2 : (⟨2, ![2048, 1024]⟩ : Shape).Idx → BitVec 32) (g2 be2 : (⟨1, ![2048]⟩ : Shape).Idx → EReal)
    (W3 : (⟨2, ![4096, 2048]⟩ : Shape).Idx → EReal) (b3 : (⟨1, ![4096]⟩ : Shape).Idx → EReal)
    (M3 : (⟨2, ![4096, 2048]⟩ : Shape).Idx → BitVec 32) : (⟨2, ![8192, 4096]⟩ : Shape).Idx → EReal :=
  fun j =>
    lin (hidden (hidden (fun i k => x (ix2 i k)) (masked W1 M1) (fun n => b1 (ix1 n)) (fun n => g1 (ix1 n)) (fun n => be1 (ix1 n)))
        (masked W2 M2) (fun n => b2 (ix1 n)) (fun n => g2 (ix1 n)) (fun n => be2 (ix1 n)))
      (masked W3 M3) (fun n => b3 (ix1 n)) (j 0) (j 1)

end Cert.Mlp

end
-- ==== Proof.KHost.lean ====
/-
  The host operations between the kernel regions, read as values. Before each region the program converts a layer's
  integer mask to floats, multiplies it into the weights, (for the first two layers) changes the float format, and
  transposes: the array the region's weight window reads holds, at (k, n), the masked weight (n, k). No host operation
  writes an argument array or another region's output, so those keep their contents through each stretch.
-/
import proofs.«143171_j21096879358070_2_alg».proof.Proof.Gen.KernelIdeal.Frame
import Idealize.ShloMosaic.Lib.StableHlo.Run
import Idealize.ShloMosaic.Lib.ValueLayout
import proofs.«143171_j21096879358070_2_alg».proof.Proof.Mlp

set_option maxRecDepth 16384

noncomputable section

namespace Cert.KernelIdeal.KHost

open Cert.KernelIdeal Cert.KernelIdeal.Gen
open Idealize.ShloMosaic Idealize.ShloMosaic.TcCoe Idealize.ShloMosaic.ValueIdx Idealize.ShloMosaic.StableHlo Idealize.SL.Sem

/-- The masked weights, format changed and transposed, read at (k, n): the masked weight (n, k). -/
theorem wT_bf16_apply {N K : ℕ} (W : (⟨2, ![N, K]⟩ : Shape).Idx → EReal) (M : (⟨2, ![N, K]⟩ : Shape).Idx → BitVec 32)
    (hlt : FTy.bits .bf16 < FTy.bits .f32) (ht : (⟨2, ![N, K]⟩ : Shape).Transposes [1, 0] ⟨2, ![K, N]⟩) (k : Fin K) (n : Fin N) :
    transpose ⟨2, ![K, N]⟩ [1, 0] (truncf (F := Ideal) (φ := .f32) .bf16 (mulf (F := Ideal) (φ := .f32) W (sitofp (F := Ideal) .f32 M)) hlt) ht (ix2 k n)
      = Mlp.masked W M n k :=
  (transpose_ix2_apply _ ht k n).trans rfl

/-- The masked weights transposed, read at (k, n): the masked weight (n, k). -/
theorem wT_f32_apply {N K : ℕ} (W : (⟨2, ![N, K]⟩ : Shape).Idx → EReal) (M : (⟨2, ![N, K]⟩ : Shape).Idx → BitVec 32)
    (ht : (⟨2, ![N, K]⟩ : Shape).Transposes [1, 0] ⟨2, ![K, N]⟩) (k : Fin K) (n : Fin N) :
    transpose ⟨2, ![K, N]⟩ [1, 0] (mulf (F := Ideal) (φ := .f32) W (sitofp (F := Ideal) .f32 M)) ht (ix2 k n)
      = Mlp.masked W M n k :=
  (transpose_ix2_apply _ ht k n).trans rfl

/-! ## The first stretch -/

theorem hostOps0_main_v3 (W : Valuation τ sig (Elt Ideal)) :
    StableHlo.after (hostOps0 (F := Ideal)) W (Proc.devRef .tc main_v3)
      = transpose S256x1024 [1, 0] (truncf (F := Ideal) (φ := .f32) .bf16 (mulf (F := Ideal) (φ := .f32) (W (Proc.devRef .tc main_arg1)) (sitofp (F := Ideal) .f32 (W (Proc.devRef .tc main_arg3)))) bitsLt_bf16_f32)
          transposes_S1024x256_S256x1024_1_0 := by
  after_results
  all_goals rfl
theorem hostOps0_main_arg0 (W : Valuation τ sig (Elt Ideal)) :
    StableHlo.after (hostOps0 (F := Ideal)) W (Proc.devRef .tc main_arg0) = W (Proc.devRef .tc main_arg0) := by
  after_results
  all_goals rfl
theorem hostOps0_main_arg2 (W : Valuation τ sig (Elt Ideal)) :
    StableHlo.after (hostOps0 (F := Ideal)) W (Proc.devRef .tc main_arg2) = W (Proc.devRef .tc main_arg2) := by
  after_results
  all_goals rfl
theorem hostOps0_main_arg4 (W : Valuation τ sig (Elt Ideal)) :
    StableHlo.after (hostOps0 (F := Ideal)) W (Proc.devRef .tc main_arg4) = W (Proc.devRef .tc main_arg4) := by
  after_results
  all_goals rfl
theorem hostOps0_main_arg5 (W : Valuation τ sig (Elt Ideal)) :
    StableHlo.after (hostOps0 (F := Ideal)) W (Proc.devRef .tc main_arg5) = W (Proc.devRef .tc main_arg5) := by
  after_results
  all_goals rfl
theorem hostOps0_main_arg6 (W : Valuation τ sig (Elt Ideal)) :
    StableHlo.after (hostOps0 (F := Ideal)) W (Proc.devRef .tc main_arg6) = W (Proc.devRef .tc main_arg6) := by
  after_results
  all_goals rfl
theorem hostOps0_main_arg7 (W : Valuation τ sig (Elt Ideal)) :
    StableHlo.after (hostOps0 (F := Ideal)) W (Proc.devRef .tc main_arg7) = W (Proc.devRef .tc main_arg7) := by
  after_results
  all_goals rfl
theorem hostOps0_main_arg8 (W : Valuation τ sig (Elt Ideal)) :
    StableHlo.after (hostOps0 (F := Ideal)) W (Proc.devRef .tc main_arg8) = W (Proc.devRef .tc main_arg8) := by
  after_results
  all_goals rfl
theorem hostOps0_main_arg9 (W : Valuation τ sig (Elt Ideal)) :
    StableHlo.after (hostOps0 (F := Ideal)) W (Proc.devRef .tc main_arg9) = W (Proc.devRef .tc main_arg9) := by
  after_results
  all_goals rfl
theorem hostOps0_main_arg10 (W : Valuation τ sig (Elt Ideal)) :
    StableHlo.after (hostOps0 (F := Ideal)) W (Proc.devRef .tc main_arg10) = W (Proc.devRef .tc main_arg10) := by
  after_results
  all_goals rfl
theorem hostOps0_main_arg11 (W : Valuation τ sig (Elt Ideal)) :
    StableHlo.after (hostOps0 (F := Ideal)) W (Proc.devRef .tc main_arg11) = W (Proc.devRef .tc main_arg11) := by
  after_results
  all_goals rfl
theorem hostOps0_main_arg12 (W : Valuation τ sig (Elt Ideal)) :
    StableHlo.after (hostOps0 (F := Ideal)) W (Proc.devRef .tc main_arg12) = W (Proc.devRef .tc main_arg12) := by
  after_results
  all_goals rfl
theorem hostOps0_main_arg13 (W : Valuation τ sig (Elt Ideal)) :
    StableHlo.after (hostOps0 (F := Ideal)) W (Proc.devRef .tc main_arg13) = W (Proc.devRef .tc main_arg13) := by
  after_results
  all_goals rfl

/-! ## The second stretch -/

theorem hostOps1_main_v8 (W : Valuation τ sig (Elt Ideal)) :
    StableHlo.after (hostOps1 (F := Ideal)) W (Proc.devRef .tc main_v8)
      = transpose S1024x2048 [1, 0] (truncf (F := Ideal) (φ := .f32) .bf16 (mulf (F := Ideal) (φ := .f32) (W (Proc.devRef .tc main_arg6)) (sitofp (F := Ideal) .f32 (W (Proc.devRef .tc main_arg8)))) bitsLt_bf16_f32)
          transposes_S2048x1024_S1024x2048_1_0 := by
  after_results
  all_goals rfl
theorem hostOps1_main_v4 (W : Valuation τ sig (Elt Ideal)) :
    StableHlo.after (hostOps1 (F := Ideal)) W (Proc.devRef .tc main_v4) = W (Proc.devRef .tc main_v4) := by
  after_results
  all_goals rfl
theorem hostOps1_main_arg7 (W : Valuation τ sig (Elt Ideal)) :
    StableHlo.after (hostOps1 (F := Ideal)) W (Proc.devRef .tc main_arg7) = W (Proc.devRef .tc main_arg7) := by
  after_results
  all_goals rfl
theorem hostOps1_main_arg9 (W : Valuation τ sig (Elt Ideal)) :
    StableHlo.after (hostOps1 (F := Ideal)) W (Proc.devRef .tc main_arg9) = W (Proc.devRef .tc main_arg9) := by
  after_results
  all_goals rfl
theorem hostOps1_main_arg10 (W : Valuation τ sig (Elt Ideal)) :
    StableHlo.after (hostOps1 (F := Ideal)) W (Proc.devRef .tc main_arg10) = W (Proc.devRef .tc main_arg10) := by
  after_results
  all_goals rfl
theorem hostOps1_main_arg11 (W : Valuation τ sig (Elt Ideal)) :
    StableHlo.after (hostOps1 (F := Ideal)) W (Proc.devRef .tc main_arg11) = W (Proc.devRef .tc main_arg11) := by
  after_results
  all_goals rfl
theorem hostOps1_main_arg12 (W : Valuation τ sig (Elt Ideal)) :
    StableHlo.after (hostOps1 (F := Ideal)) W (Proc.devRef .tc main_arg12) = W (Proc.devRef .tc main_arg12) := by
  after_results
  all_goals rfl
theorem hostOps1_main_arg13 (W : Valuation τ sig (Elt Ideal)) :
    StableHlo.after (hostOps1 (F := Ideal)) W (Proc.devRef .tc main_arg13) = W (Proc.devRef .tc main_arg13) := by
  after_results
  all_goals rfl

/-! ## The third stretch -/

theorem hostOps2_main_v12 (W : Valuation τ sig (Elt Ideal)) :
    StableHlo.after (hostOps2 (F := Ideal)) W (Proc.devRef .tc main_v12)
      = transpose S2048x4096 [1, 0] (mulf (F := Ideal) (φ := .f32) (W (Proc.devRef .tc main_arg11)) (sitofp (F := Ideal) .f32 (W (Proc.devRef .tc main_arg13))))
          transposes_S4096x2048_S2048x4096_1_0 := by
  after_results
  all_goals rfl
theorem hostOps2_main_v9 (W : Valuation τ sig (Elt Ideal)) :
    StableHlo.after (hostOps2 (F := Ideal)) W (Proc.devRef .tc main_v9) = W (Proc.devRef .tc main_v9) := by
  after_results
  all_goals rfl
theorem hostOps2_main_arg12 (W : Valuation τ sig (Elt Ideal)) :
    StableHlo.after (hostOps2 (F := Ideal)) W (Proc.devRef .tc main_arg12) = W (Proc.devRef .tc main_arg12) := by
  after_results
  all_goals rfl

end Cert.KernelIdeal.KHost

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.KLayer.lean ====
/-
  One kernel block's arithmetic, read at an entry. A block holds the whole batch (B rows) and N of a layer's columns;
  its weights arrive transposed, as a [K, N] block. The body multiplies into a zero accumulator, adds the bias spread
  over the rows, and (for the two normalised layers) takes each column's mean and variance over the rows, centres,
  scales and applies the relu. Entry (i, n) of the result is the network's formula for that row and column: the
  matrix product is the sum over the contracted coordinate, a column reduction the sum over the rows, a row spread
  reads the vector's entry of the column.
-/
import Idealize.ShloMosaic.PureOps.Ideal.Laws
import Idealize.ShloMosaic.Lib.ValueIdx
import Idealize.ShloMosaic.Lib.ValueLayout
import Idealize.ShloMosaic.Lib.Pipeline.Value
import proofs.«143171_j21096879358070_2_alg».proof.Proof.LibPlainDot
import proofs.«143171_j21096879358070_2_alg».proof.Proof.Mlp

noncomputable section

namespace Cert.Mlp.Block

open Idealize.ShloMosaic Idealize.ShloMosaic.ValueIdx

variable {B K N : ℕ}

/-- A vector over the columns, spread over the rows, reads the vector's entry of the column. -/
theorem rowSpread_apply (v : (⟨1, ![N]⟩ : Shape).Idx → EReal)
    (hc : (⟨1, ![N]⟩ : Shape).ShapeCasts ⟨2, ![1, N]⟩) (hb : (⟨2, ![1, N]⟩ : Shape).Broadcasts ⟨2, ![B, N]⟩)
    (i : Fin B) (n : Fin N) :
    broadcastTo ⟨2, ![B, N]⟩ (shapeCast ⟨2, ![1, N]⟩ v hc) hb (ix2 i n) = v (ix1 n) :=
  (broadcastTo_1b_ab_apply _ hb i n).trans (shapeCast_a_1a_apply v hc 0 n)

/-- A sum down the rows, at column n, is the sum over the rows of the column's entries. -/
theorem colSum_apply (src : FVec Ideal ⟨2, ![B, N]⟩ .f32) (h : (⟨2, ![B, N]⟩ : Shape).Reduces [0] ⟨1, ![N]⟩)
    (hφ : FKind.Formats .f32) (hacc : (0x00000000#32 : BitVec 32) = FKind.add.neutral .f32 hφ) (n : Fin N) :
    multiReduction .add [0] ⟨1, ![N]⟩ src 0x00000000#32 h hφ hacc (ix1 n) = ∑ i : Fin B, src (ix2 i n) := by
  refine (Ideal.multiReduction_add_single src _ h hφ hacc (ix1 n)).trans ?_
  show (∑ k : Fin B, src (h.lift (ix1 n) k)) = _
  refine Finset.sum_congr rfl fun k _ => congrArg src ?_
  funext a; apply Fin.ext
  match a with
  | ⟨0, _⟩ => rfl
  | ⟨1, _⟩ => rfl

/-- The linear part of a block: the product into the zero accumulator plus the bias spread over the rows. -/
def lin (d : DotDims ⟨2, ![B, K]⟩ ⟨2, ![K, N]⟩ ⟨2, ![B, N]⟩)
    (hc : (⟨1, ![N]⟩ : Shape).ShapeCasts ⟨2, ![1, N]⟩) (hb : (⟨2, ![1, N]⟩ : Shape).Broadcasts ⟨2, ![B, N]⟩)
    {φ₁ φ₂ : FTy} (x : FVec Ideal ⟨2, ![B, K]⟩ φ₁) (w : FVec Ideal ⟨2, ![K, N]⟩ φ₂) (b : FVec Ideal ⟨1, ![N]⟩ .f32) :
    FVec Ideal ⟨2, ![B, N]⟩ .f32 :=
  addf (matmul d none x w (constant ⟨2, ![B, N]⟩ .f32 0x00000000#32)) (broadcastTo ⟨2, ![B, N]⟩ (shapeCast ⟨2, ![1, N]⟩ b hc) hb)

/-- Entry (i, n) of the linear part is the layer's formula, the weights read transposed. -/
theorem lin_apply (d : DotDims ⟨2, ![B, K]⟩ ⟨2, ![K, N]⟩ ⟨2, ![B, N]⟩) (hd : d = DotDims.plain B K N)
    (hc : (⟨1, ![N]⟩ : Shape).ShapeCasts ⟨2, ![1, N]⟩) (hb : (⟨2, ![1, N]⟩ : Shape).Broadcasts ⟨2, ![B, N]⟩)
    {φ₁ φ₂ : FTy} (x : FVec Ideal ⟨2, ![B, K]⟩ φ₁) (w : FVec Ideal ⟨2, ![K, N]⟩ φ₂) (b : FVec Ideal ⟨1, ![N]⟩ .f32)
    (i : Fin B) (n : Fin N) :
    lin d hc hb x w b (ix2 i n) = Mlp.lin (fun i k => x (ix2 i k)) (fun n k => w (ix2 k n)) (fun n => b (ix1 n)) i n := by
  show FloatOps.matmul d none x w (constant ⟨2, ![B, N]⟩ .f32 0x00000000#32) (ix2 i n)
      + broadcastTo ⟨2, ![B, N]⟩ (shapeCast ⟨2, ![1, N]⟩ b hc) hb (ix2 i n) = _
  rw [matmul_plain_zero_apply d hd none x w i n, rowSpread_apply b hc hb i n]
  rfl

/-- A column's mean, kept as a one-row array: the sum down the rows divided by the batch size. -/
def mean1 (hc : (⟨1, ![N]⟩ : Shape).ShapeCasts ⟨2, ![1, N]⟩) (hr : (⟨2, ![B, N]⟩ : Shape).Reduces [0] ⟨1, ![N]⟩)
    (y : FVec Ideal ⟨2, ![B, N]⟩ .f32) : FVec Ideal ⟨2, ![1, N]⟩ .f32 :=
  divf (shapeCast ⟨2, ![1, N]⟩ (multiReduction .add [0] ⟨1, ![N]⟩ y 0x00000000#32 hr (.inl rfl) rfl) hc)
    (broadcast ⟨2, ![1, N]⟩ (Scalar.ofBits .f32 0x46000000#32))

theorem mean1_apply (hc : (⟨1, ![N]⟩ : Shape).ShapeCasts ⟨2, ![1, N]⟩) (hr : (⟨2, ![B, N]⟩ : Shape).Reduces [0] ⟨1, ![N]⟩)
    (y : FVec Ideal ⟨2, ![B, N]⟩ .f32) (n : Fin N) :
    mean1 hc hr y (ix2 (0 : Fin 1) n) = Mlp.colMean (fun i n => y (ix2 i n)) n := by
  show Ideal.div (shapeCast ⟨2, ![1, N]⟩ (multiReduction .add [0] ⟨1, ![N]⟩ y 0x00000000#32 hr (.inl rfl) rfl) hc (ix2 (0 : Fin 1) n))
      (Ideal.ofBits .f32 0x46000000#32) = _
  refine congrArg (fun z => Ideal.div z (Ideal.ofBits .f32 0x46000000#32)) ?_
  refine (shapeCast_a_1a_apply _ hc 0 n).trans ?_
  exact colSum_apply y hr _ _ n

/-- The block centred: every entry minus its column's mean. -/
def cen (hc : (⟨1, ![N]⟩ : Shape).ShapeCasts ⟨2, ![1, N]⟩) (hb : (⟨2, ![1, N]⟩ : Shape).Broadcasts ⟨2, ![B, N]⟩)
    (hr : (⟨2, ![B, N]⟩ : Shape).Reduces [0] ⟨1, ![N]⟩) (y : FVec Ideal ⟨2, ![B, N]⟩ .f32) : FVec Ideal ⟨2, ![B, N]⟩ .f32 :=
  subf y (broadcastTo ⟨2, ![B, N]⟩ (mean1 hc hr y) hb)

theorem cen_apply (hc : (⟨1, ![N]⟩ : Shape).ShapeCasts ⟨2, ![1, N]⟩) (hb : (⟨2, ![1, N]⟩ : Shape).Broadcasts ⟨2, ![B, N]⟩)
    (hr : (⟨2, ![B, N]⟩ : Shape).Reduces [0] ⟨1, ![N]⟩) (y : FVec Ideal ⟨2, ![B, N]⟩ .f32) (i : Fin B) (n : Fin N) :
    cen hc hb hr y (ix2 i n) = y (ix2 i n) - Mlp.colMean (fun i n => y (ix2 i n)) n := by
  show y (ix2 i n) - broadcastTo ⟨2, ![B, N]⟩ (mean1 hc hr y) hb (ix2 i n) = _
  rw [broadcastTo_1b_ab_apply _ hb i n, mean1_apply hc hr y n]

/-- The column variances, kept as a one-row array: the mean of the squared deviations. -/
def var1 (hc : (⟨1, ![N]⟩ : Shape).ShapeCasts ⟨2, ![1, N]⟩) (hb : (⟨2, ![1, N]⟩ : Shape).Broadcasts ⟨2, ![B, N]⟩)
    (hr : (⟨2, ![B, N]⟩ : Shape).Reduces [0] ⟨1, ![N]⟩) (y : FVec Ideal ⟨2, ![B, N]⟩ .f32) : FVec Ideal ⟨2, ![1, N]⟩ .f32 :=
  divf (shapeCast ⟨2, ![1, N]⟩ (multiReduction .add [0] ⟨1, ![N]⟩ (mulf (cen hc hb hr y) (cen hc hb hr y)) 0x00000000#32 hr (.inl rfl) rfl) hc)
    (broadcast ⟨2, ![1, N]⟩ (Scalar.ofBits .f32 0x46000000#32))

theorem var1_apply (hc : (⟨1, ![N]⟩ : Shape).ShapeCasts ⟨2, ![1, N]⟩) (hb : (⟨2, ![1, N]⟩ : Shape).Broadcasts ⟨2, ![B, N]⟩)
    (hr : (⟨2, ![B, N]⟩ : Shape).Reduces [0] ⟨1, ![N]⟩) (y : FVec Ideal ⟨2, ![B, N]⟩ .f32) (n : Fin N) :
    var1 hc hb hr y (ix2 (0 : Fin 1) n) = Mlp.colVar (fun i n => y (ix2 i n)) n := by
  refine (mean1_apply hc hr (mulf (cen hc hb hr y) (cen hc hb hr y)) n).trans ?_
  unfold Mlp.colMean Mlp.colVar
  refine congrArg (fun z => Ideal.div z Mlp.cB) (Finset.sum_congr rfl fun i _ => ?_)
  show cen hc hb hr y (ix2 i n) * cen hc hb hr y (ix2 i n) = _
  rw [cen_apply hc hb hr y i n]

/-- Normalise, scale, shift and relu, as the block's body writes it. -/
def normRelu (hc : (⟨1, ![N]⟩ : Shape).ShapeCasts ⟨2, ![1, N]⟩) (hb : (⟨2, ![1, N]⟩ : Shape).Broadcasts ⟨2, ![B, N]⟩)
    (hr : (⟨2, ![B, N]⟩ : Shape).Reduces [0] ⟨1, ![N]⟩) (y : FVec Ideal ⟨2, ![B, N]⟩ .f32) (g be : FVec Ideal ⟨1, ![N]⟩ .f32) :
    FVec Ideal ⟨2, ![B, N]⟩ .f32 :=
  maximumf
    (addf
      (mulf
        (mulf (cen hc hb hr y)
          (broadcastTo ⟨2, ![B, N]⟩ (rsqrt (addf (var1 hc hb hr y) (broadcast ⟨2, ![1, N]⟩ (Scalar.ofBits .f32 0x3727C5AC#32)))) hb))
        (broadcastTo ⟨2, ![B, N]⟩ (shapeCast ⟨2, ![1, N]⟩ g hc) hb))
      (broadcastTo ⟨2, ![B, N]⟩ (shapeCast ⟨2, ![1, N]⟩ be hc) hb))
    (broadcast ⟨2, ![B, N]⟩ (Scalar.ofBits .f32 0x00000000#32))

/-- Entry (i, n) of the normalised block is the network's normalise-and-relu formula at row i, column n. -/
theorem normRelu_apply (hc : (⟨1, ![N]⟩ : Shape).ShapeCasts ⟨2, ![1, N]⟩) (hb : (⟨2, ![1, N]⟩ : Shape).Broadcasts ⟨2, ![B, N]⟩)
    (hr : (⟨2, ![B, N]⟩ : Shape).Reduces [0] ⟨1, ![N]⟩) (y : FVec Ideal ⟨2, ![B, N]⟩ .f32) (g be : FVec Ideal ⟨1, ![N]⟩ .f32)
    (i : Fin B) (n : Fin N) :
    normRelu hc hb hr y g be (ix2 i n)
      = Mlp.bnRelu (fun i n => y (ix2 i n)) (fun n => g (ix1 n)) (fun n => be (ix1 n)) i n := by
  show max (cen hc hb hr y (ix2 i n)
        * broadcastTo ⟨2, ![B, N]⟩ (rsqrt (addf (var1 hc hb hr y) (broadcast ⟨2, ![1, N]⟩ (Scalar.ofBits .f32 0x3727C5AC#32)))) hb (ix2 i n)
        * broadcastTo ⟨2, ![B, N]⟩ (shapeCast ⟨2, ![1, N]⟩ g hc) hb (ix2 i n)
        + broadcastTo ⟨2, ![B, N]⟩ (shapeCast ⟨2, ![1, N]⟩ be hc) hb (ix2 i n)) (Ideal.ofBits .f32 0x00000000#32) = _
  rw [cen_apply hc hb hr y i n, broadcastTo_1b_ab_apply _ hb i n, rowSpread_apply g hc hb i n, rowSpread_apply be hc hb i n]
  show max ((y (ix2 i n) - Mlp.colMean (fun i n => y (ix2 i n)) n)
        * Ideal.rsqrt (var1 hc hb hr y (ix2 (0 : Fin 1) n) + Ideal.ofBits .f32 0x3727C5AC#32) * g (ix1 n) + be (ix1 n))
      (Ideal.ofBits .f32 0x00000000#32) = _
  rw [var1_apply hc hb hr y n]
  rfl

end Cert.Mlp.Block

end
-- ==== Proof.MlpCongr.lean ====
/-
  The network's formulas depend on little: an entry of a linear layer on one row of the input, one row of the weights
  and one bias entry; an entry of a normalised layer on one column of its input and that column's scale and shift.
  So a block of columns (or of rows) computes the same entries as the whole array.
-/
import proofs.«143171_j21096879358070_2_alg».proof.Proof.Mlp

noncomputable section

namespace Cert.Mlp

open Idealize.ShloMosaic

variable {B B' K N N' : ℕ}

/-- An entry of a linear layer reads row `i` of the input, row `n` of the weights and entry `n` of the bias. -/
theorem lin_congr (x : Fin B → Fin K → EReal) (x' : Fin B' → Fin K → EReal) (w : Fin N → Fin K → EReal)
    (w' : Fin N' → Fin K → EReal) (b : Fin N → EReal) (b' : Fin N' → EReal) (i : Fin B) (i' : Fin B') (n : Fin N) (n' : Fin N')
    (hx : ∀ k, x i k = x' i' k) (hw : ∀ k, w n k = w' n' k) (hb : b n = b' n') : lin x w b i n = lin x' w' b' i' n' := by
  unfold lin
  rw [hb]
  exact congrArg (· + b' n') (Finset.sum_congr rfl fun k _ => by rw [hx k, hw k])

/-- A column's mean reads that column only. -/
theorem colMean_congr (h : Fin B → Fin N → EReal) (h' : Fin B → Fin N' → EReal) (n : Fin N) (n' : Fin N')
    (hh : ∀ i, h i n = h' i n') : colMean h n = colMean h' n' := by
  unfold colMean
  exact congrArg (fun z => Ideal.div z cB) (Finset.sum_congr rfl fun i _ => hh i)

/-- A column's variance reads that column only. -/
theorem colVar_congr (h : Fin B → Fin N → EReal) (h' : Fin B → Fin N' → EReal) (n : Fin N) (n' : Fin N')
    (hh : ∀ i, h i n = h' i n') : colVar h n = colVar h' n' := by
  unfold colVar
  rw [colMean_congr h h' n n' hh]
  exact congrArg (fun z => Ideal.div z cB) (Finset.sum_congr rfl fun i _ => by rw [hh i])

/-- An entry of a normalised layer reads its column, and the column's scale and shift. -/
theorem bnRelu_congr (h : Fin B → Fin N → EReal) (h' : Fin B → Fin N' → EReal) (g be : Fin N → EReal) (g' be' : Fin N' → EReal)
    (n : Fin N) (n' : Fin N') (hh : ∀ i, h i n = h' i n') (hg : g n = g' n') (hbe : be n = be' n') (i : Fin B) :
    bnRelu h g be i n = bnRelu h' g' be' i n' := by
  unfold bnRelu
  rw [colMean_congr h h' n n' hh, colVar_congr h h' n n' hh, hh i, hg, hbe]

end Cert.Mlp

end
-- ==== Proof.KReg0.lean ====
/-
  The first kernel region, read as a value. Its grid walks blocks of 512 output columns; every block holds the whole batch,
  the matching 512 columns of the transposed masked weights, and the matching entries of the bias, the scale and the shift.
  What a grid point writes back is its block of ONE whole-array function of the arrays the region finds — the linear layer,
  normalised over the batch, floored at zero — and the blocks tile the output array, so the array ends holding that function.
-/
import proofs.«143171_j21096879358070_2_alg».proof.Proof.Gen.KernelIdeal.Frame
import proofs.«143171_j21096879358070_2_alg».proof.Proof.KLayer
import proofs.«143171_j21096879358070_2_alg».proof.Proof.MlpCongr

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The value the body stores is the block's linear part, normalised and floored at zero (the changes of float
    format are the identity on the extended reals, and so is a cast of a shape to itself). -/
theorem pay_eq (x0 : Vec Ideal S8192x256 .f32) (x1 : Vec Ideal S256x512 .bf16) (x2 x3 x4 : Vec Ideal S512 .f32) :
    k0_pay1 x0 x1 x2 x3 x4 = Mlp.Block.normRelu shapeCasts_S512_S1x512 broadcasts_S1x512_S8192x512 reduces_S8192x512_S512
      (Mlp.Block.lin (φ₁ := .f32) (φ₂ := .bf16) dot_S8192x256_S256x512_S8192x512_1_0_0_1_n_n shapeCasts_S512_S1x512 broadcasts_S1x512_S8192x512 x0 x1 x2) x3 x4 := by
  rw [show k0_pay1 x0 x1 x2 x3 x4 = Mlp.Block.normRelu shapeCasts_S512_S1x512 broadcasts_S1x512_S8192x512 reduces_S8192x512_S512
      (Mlp.Block.lin (φ₁ := .bf16) (φ₂ := .bf16) dot_S8192x256_S256x512_S8192x512_1_0_0_1_n_n shapeCasts_S512_S1x512 broadcasts_S1x512_S8192x512 (truncf .bf16 x0 bitsLt_bf16_f32)
        (shapeCast S256x512 x1 shapeCasts_S256x512_S256x512) x2) x3 x4 from rfl]
  rw [shapeCast_self]
  rfl

/-- One entry of one block. If the block's inputs are the whole batch, columns `q·512 …` of the transposed weights and
    the same columns of the bias, the scale and the shift, then entry `(i, n)` of what the body stores is the layer's
    entry `(i, q·512 + n)`: a column's statistics are taken over the whole batch, which the block holds. -/
theorem block_entry (X : S8192x256.Idx → EReal) (Wt : S256x1024.Idx → EReal) (b g be : S1024.Idx → EReal)
    (x0 : Vec Ideal S8192x256 .f32) (x1 : Vec Ideal S256x512 .bf16) (x2 x3 x4 : Vec Ideal S512 .f32)
    (q : ℕ) (hq : q ≤ 1)
    (h0 : ∀ (i : Fin 8192) (k : Fin 256), x0 (ix2 i k) = X (ix2 i k))
    (h1 : ∀ (k : Fin 256) (n : Fin 512), x1 (ix2 k n) = Wt (ix2 k ⟨q * 512 + n.val, by have := n.isLt; omega⟩))
    (h2 : ∀ n : Fin 512, x2 (ix1 n) = b (ix1 ⟨q * 512 + n.val, by have := n.isLt; omega⟩))
    (h3 : ∀ n : Fin 512, x3 (ix1 n) = g (ix1 ⟨q * 512 + n.val, by have := n.isLt; omega⟩))
    (h4 : ∀ n : Fin 512, x4 (ix1 n) = be (ix1 ⟨q * 512 + n.val, by have := n.isLt; omega⟩))
    (i : Fin 8192) (n : Fin 512) :
    k0_pay1 x0 x1 x2 x3 x4 (ix2 i n)
      = Mlp.hidden (fun i k => X (ix2 i k)) (fun n k => Wt (ix2 k n)) (fun n => b (ix1 n)) (fun n => g (ix1 n))
          (fun n => be (ix1 n)) i (⟨q * 512 + n.val, by have := n.isLt; omega⟩ : Fin 1024) := by
  rw [pay_eq, Mlp.Block.normRelu_apply]
  unfold Mlp.hidden
  refine Mlp.bnRelu_congr _ _ _ _ _ _ n _ (fun i' => ?_) (h3 n) (h4 n) i
  refine (Mlp.Block.lin_apply (φ₁ := .f32) (φ₂ := .bf16) dot_S8192x256_S256x512_S8192x512_1_0_0_1_n_n rfl shapeCasts_S512_S1x512 broadcasts_S1x512_S8192x512 x0 x1 x2 i' n).trans ?_
  exact Mlp.lin_congr _ _ _ _ _ _ i' i' n _ (fun k => h0 i' k) (fun k => h1 k n) (h2 n)

/-- What the region leaves in its output array, as ONE function of the arrays it finds at its entry. -/
def G (c : Dev nD) : S8192x1024.Idx → EReal := fun j =>
  Mlp.hidden (B := 8192) (K := 256) (N := 1024) (fun i k => V c main_arg0 (ix2 i k)) (fun n k => V c main_v3 (ix2 k n))
    (fun n => V c main_arg2 (ix1 n)) (fun n => V c main_arg4 (ix1 n)) (fun n => V c main_arg5 (ix1 n)) (j 0) (j 1)

/-- The printed index maps, decided over the grid: the batch window stays at block 0, the weights' and the three
    vectors' windows move along the columns with the output's. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = win0_5.index t (1 : Fin 2)
    ∧ win0_2.index t (0 : Fin 1) = win0_5.index t (1 : Fin 2)
    ∧ win0_3.index t (0 : Fin 1) = win0_5.index t (1 : Fin 2)
    ∧ win0_4.index t (0 : Fin 1) = win0_5.index t (1 : Fin 2)
    ∧ win0_5.index t (0 : Fin 2) = 0 ∧ win0_5.index t (1 : Fin 2) ≤ 1 :=
  (by decide +kernel : ∀ t : Fin grid0.N, _)

/-- Every block of columns is some grid point's. -/
theorem idx_onto : ∀ q : Fin 2, ∃ t : Fin cfg0.N, win0_5.index t = ![0, q.val] :=
  (by decide +kernel : ∀ q : Fin 2, ∃ t : Fin grid0.N, win0_5.index t = ![0, q.val])

/-- What grid point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S8192x256) hz2, View.ld_unit_zero (S := S256x512) hz2, View.ld_unit_zero (S := S512) hz1]
  obtain ⟨e00, e01, e10, e11, e2, e3, e4, e50, e51⟩ := idx_facts t
  funext y
  obtain ⟨i, n, rfl⟩ : ∃ (i : Fin 8192) (n : Fin 512), y = ix2 i n := ⟨y 0, y 1, eq_ix2 y⟩
  show k0_pay1 (iblk0 V c 0 t) (iblk0 V c 1 t) (iblk0 V c 2 t) (iblk0 V c 3 t) (iblk0 V c 4 t) (ix2 i n)
    = G V c (((cfg0.win 5).blk t).view.emb (ix2 i n))
  refine (block_entry (V c main_arg0) (V c main_v3) (V c main_arg2) (V c main_arg4) (V c main_arg5)
    (iblk0 V c 0 t) (iblk0 V c 1 t) (iblk0 V c 2 t) (iblk0 V c 3 t) (iblk0 V c 4 t)
    (win0_5.index t (1 : Fin 2)) e51 ?_ ?_ ?_ ?_ ?_ i n).trans ?_
  · intro i k
    show V c main_arg0 (((cfg0.win 0).blk t).view.emb (ix2 i k)) = V c main_arg0 (ix2 i k)
    refine congrArg _ (funext fun a => Fin.ext ?_)
    match a with
    | ⟨0, _⟩ => show win0_0.index t (0 : Fin 2) * 8192 + 1 * i.val = i.val; omega
    | ⟨1, _⟩ => show win0_0.index t (1 : Fin 2) * 256 + 1 * k.val = k.val; omega
  · intro k n
    show V c main_v3 (((cfg0.win 1).blk t).view.emb (ix2 k n)) = V c main_v3 (ix2 k _)
    refine congrArg _ (funext fun a => Fin.ext ?_)
    match a with
    | ⟨0, _⟩ => show win0_1.index t (0 : Fin 2) * 256 + 1 * k.val = k.val; omega
    | ⟨1, _⟩ => show win0_1.index t (1 : Fin 2) * 512 + 1 * n.val = win0_5.index t (1 : Fin 2) * 512 + n.val; omega
  · intro n
    show V c main_arg2 (((cfg0.win 2).blk t).view.emb (ix1 n)) = V c main_arg2 (ix1 _)
    refine congrArg _ (funext fun a => Fin.ext ?_)
    match a with
    | ⟨0, _⟩ => show win0_2.index t (0 : Fin 1) * 512 + 1 * n.val = win0_5.index t (1 : Fin 2) * 512 + n.val; omega
  · intro n
    show V c main_arg4 (((cfg0.win 3).blk t).view.emb (ix1 n)) = V c main_arg4 (ix1 _)
    refine congrArg _ (funext fun a => Fin.ext ?_)
    match a with
    | ⟨0, _⟩ => show win0_3.index t (0 : Fin 1) * 512 + 1 * n.val = win0_5.index t (1 : Fin 2) * 512 + n.val; omega
  · intro n
    show V c main_arg5 (((cfg0.win 4).blk t).view.emb (ix1 n)) = V c main_arg5 (ix1 _)
    refine congrArg _ (funext fun a => Fin.ext ?_)
    match a with
    | ⟨0, _⟩ => show win0_4.index t (0 : Fin 1) * 512 + 1 * n.val = win0_5.index t (1 : Fin 2) * 512 + n.val; omega
  · have he : ((cfg0.win 5).blk t).view.emb (ix2 i n)
        = ix2 i (⟨win0_5.index t (1 : Fin 2) * 512 + n.val, by have := n.isLt; omega⟩ : Fin 1024) := by
      funext a; apply Fin.ext
      match a with
      | ⟨0, _⟩ => show win0_5.index t (0 : Fin 2) * 8192 + 1 * i.val = i.val; omega
      | ⟨1, _⟩ => show win0_5.index t (1 : Fin 2) * 512 + 1 * n.val = win0_5.index t (1 : Fin 2) * 512 + n.val; omega
    rw [he]
    rfl

/-- An index of the output array lies in point `t`'s block iff each coordinate lies in the block's range. -/
theorem mem_blk (t : Fin cfg0.N) (i : S8192x1024.Idx) :
    i ∈ ((cfg0.win 5).blk t).view.set ↔ ∀ a : Fin 2, win0_5.index t a * S8192x512.size a ≤ (i a).val ∧ (i a).val < win0_5.index t a * S8192x512.size a + S8192x512.size a := by
  show i ∈ ((View.whole main_v4).slice (win0_5.rect t)).set ↔ _
  rw [View.set_slice_whole, Rect.mem_set_unit]
  exact Iff.rfl

/-- The column blocks tile the output array: column `n` lies in the block of the point whose index is `n / 512`. -/
theorem cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ := idx_onto ⟨(i 1).val / 512, by omega⟩
  have q0 : win0_5.index t (0 : Fin 2) = 0 := congrFun ht 0
  have q1 : win0_5.index t (1 : Fin 2) = (i 1).val / 512 := congrFun ht 1
  refine ⟨t, flush0_5 t, ?_⟩
  rw [mem_blk]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 512 ≤ (i 1).val ∧ (i 1).val < win0_5.index t (1 : Fin 2) * 512 + 512; omega

/-- The output array after the region: the layer's formula of the arrays the region found. -/
theorem final (c : Dev nD) : (dat0 V c).arrAt 5 cfg0.N = G V c :=
  (dat0 V c).arrAt_eq_of_cover 5 (G V c) (fun t _ => flushed_eq V c t) cover

end Cert.KernelIdeal.Reg0

end
-- ==== Proof.KReg1.lean ====
/-
  The second kernel region, read as a value. Its grid walks blocks of 256 output columns; every block holds the whole batch
  of the first layer's activations, the matching 256 columns of the transposed masked weights, and the matching entries of
  the bias, the scale and the shift. What a grid point writes back is its block of ONE whole-array function of the arrays
  the region finds, and the blocks tile the output array, so the array ends holding that function.
-/
import proofs.«143171_j21096879358070_2_alg».proof.Proof.Gen.KernelIdeal.Frame
import proofs.«143171_j21096879358070_2_alg».proof.Proof.KLayer
import proofs.«143171_j21096879358070_2_alg».proof.Proof.MlpCongr

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The value the body stores is the block's linear part, normalised and floored at zero (the changes of float
    format are the identity on the extended reals, and so is a cast of a shape to itself). -/
theorem pay_eq (x0 : Vec Ideal S8192x1024 .bf16) (x1 : Vec Ideal S1024x256 .bf16) (x2 x3 x4 : Vec Ideal S256 .f32) :
    k1_pay1 x0 x1 x2 x3 x4 = Mlp.Block.normRelu shapeCasts_S256_S1x256 broadcasts_S1x256_S8192x256 reduces_S8192x256_S256
      (Mlp.Block.lin (φ₁ := .bf16) (φ₂ := .bf16) dot_S8192x1024_S1024x256_S8192x256_1_0_0_1_n_n shapeCasts_S256_S1x256 broadcasts_S1x256_S8192x256 x0 x1 x2) x3 x4 := by
  rw [show k1_pay1 x0 x1 x2 x3 x4 = Mlp.Block.normRelu shapeCasts_S256_S1x256 broadcasts_S1x256_S8192x256 reduces_S8192x256_S256
      (Mlp.Block.lin (φ₁ := .bf16) (φ₂ := .bf16) dot_S8192x1024_S1024x256_S8192x256_1_0_0_1_n_n shapeCasts_S256_S1x256 broadcasts_S1x256_S8192x256 (shapeCast S8192x1024 x0 shapeCasts_S8192x1024_S8192x1024)
        (shapeCast S1024x256 x1 shapeCasts_S1024x256_S1024x256) x2) x3 x4 from rfl]
  rw [shapeCast_self, shapeCast_self]

/-- One entry of one block. If the block's inputs are the whole batch, columns `q·256 …` of the transposed weights and
    the same columns of the bias, the scale and the shift, then entry `(i, n)` of what the body stores is the layer's
    entry `(i, q·256 + n)`: a column's statistics are taken over the whole batch, which the block holds. -/
theorem block_entry (X : S8192x1024.Idx → EReal) (Wt : S1024x2048.Idx → EReal) (b g be : S2048.Idx → EReal)
    (x0 : Vec Ideal S8192x1024 .bf16) (x1 : Vec Ideal S1024x256 .bf16) (x2 x3 x4 : Vec Ideal S256 .f32)
    (q : ℕ) (hq : q ≤ 7)
    (h0 : ∀ (i : Fin 8192) (k : Fin 1024), x0 (ix2 i k) = X (ix2 i k))
    (h1 : ∀ (k : Fin 1024) (n : Fin 256), x1 (ix2 k n) = Wt (ix2 k ⟨q * 256 + n.val, by have := n.isLt; omega⟩))
    (h2 : ∀ n : Fin 256, x2 (ix1 n) = b (ix1 ⟨q * 256 + n.val, by have := n.isLt; omega⟩))
    (h3 : ∀ n : Fin 256, x3 (ix1 n) = g (ix1 ⟨q * 256 + n.val, by have := n.isLt; omega⟩))
    (h4 : ∀ n : Fin 256, x4 (ix1 n) = be (ix1 ⟨q * 256 + n.val, by have := n.isLt; omega⟩))
    (i : Fin 8192) (n : Fin 256) :
    k1_pay1 x0 x1 x2 x3 x4 (ix2 i n)
      = Mlp.hidden (fun i k => X (ix2 i k)) (fun n k => Wt (ix2 k n)) (fun n => b (ix1 n)) (fun n => g (ix1 n))
          (fun n => be (ix1 n)) i (⟨q * 256 + n.val, by have := n.isLt; omega⟩ : Fin 2048) := by
  rw [pay_eq, Mlp.Block.normRelu_apply]
  unfold Mlp.hidden
  refine Mlp.bnRelu_congr _ _ _ _ _ _ n _ (fun i' => ?_) (h3 n) (h4 n) i
  refine (Mlp.Block.lin_apply (φ₁ := .bf16) (φ₂ := .bf16) dot_S8192x1024_S1024x256_S8192x256_1_0_0_1_n_n rfl shapeCasts_S256_S1x256 broadcasts_S1x256_S8192x256 x0 x1 x2 i' n).trans ?_
  exact Mlp.lin_congr _ _ _ _ _ _ i' i' n _ (fun k => h0 i' k) (fun k => h1 k n) (h2 n)

/-- What the region leaves in its output array, as ONE function of the arrays it finds at its entry. -/
def G (c : Dev nD) : S8192x2048.Idx → EReal := fun j =>
  Mlp.hidden (B := 8192) (K := 1024) (N := 2048) (fun i k => V c main_v4 (ix2 i k)) (fun n k => V c main_v8 (ix2 k n))
    (fun n => V c main_arg7 (ix1 n)) (fun n => V c main_arg9 (ix1 n)) (fun n => V c main_arg10 (ix1 n)) (j 0) (j 1)

/-- The printed index maps, decided over the grid: the batch window stays at block 0, the weights' and the three
    vectors' windows move along the columns with the output's. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = win1_5.index t (1 : Fin 2)
    ∧ win1_2.index t (0 : Fin 1) = win1_5.index t (1 : Fin 2)
    ∧ win1_3.index t (0 : Fin 1) = win1_5.index t (1 : Fin 2)
    ∧ win1_4.index t (0 : Fin 1) = win1_5.index t (1 : Fin 2)
    ∧ win1_5.index t (0 : Fin 2) = 0 ∧ win1_5.index t (1 : Fin 2) ≤ 7 :=
  (by decide +kernel : ∀ t : Fin grid1.N, _)

/-- Every block of columns is some grid point's. -/
theorem idx_onto : ∀ q : Fin 8, ∃ t : Fin cfg1.N, win1_5.index t = ![0, q.val] :=
  (by decide +kernel : ∀ q : Fin 8, ∃ t : Fin grid1.N, win1_5.index t = ![0, q.val])

/-- What grid point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S8192x1024) hz2, View.ld_unit_zero (S := S1024x256) hz2, View.ld_unit_zero (S := S256) hz1]
  obtain ⟨e00, e01, e10, e11, e2, e3, e4, e50, e51⟩ := idx_facts t
  funext y
  obtain ⟨i, n, rfl⟩ : ∃ (i : Fin 8192) (n : Fin 256), y = ix2 i n := ⟨y 0, y 1, eq_ix2 y⟩
  show k1_pay1 (iblk1 V c 0 t) (iblk1 V c 1 t) (iblk1 V c 2 t) (iblk1 V c 3 t) (iblk1 V c 4 t) (ix2 i n)
    = G V c (((cfg1.win 5).blk t).view.emb (ix2 i n))
  refine (block_entry (V c main_v4) (V c main_v8) (V c main_arg7) (V c main_arg9) (V c main_arg10)
    (iblk1 V c 0 t) (iblk1 V c 1 t) (iblk1 V c 2 t) (iblk1 V c 3 t) (iblk1 V c 4 t)
    (win1_5.index t (1 : Fin 2)) e51 ?_ ?_ ?_ ?_ ?_ i n).trans ?_
  · intro i k
    show V c main_v4 (((cfg1.win 0).blk t).view.emb (ix2 i k)) = V c main_v4 (ix2 i k)
    refine congrArg _ (funext fun a => Fin.ext ?_)
    match a with
    | ⟨0, _⟩ => show win1_0.index t (0 : Fin 2) * 8192 + 1 * i.val = i.val; omega
    | ⟨1, _⟩ => show win1_0.index t (1 : Fin 2) * 1024 + 1 * k.val = k.val; omega
  · intro k n
    show V c main_v8 (((cfg1.win 1).blk t).view.emb (ix2 k n)) = V c main_v8 (ix2 k _)
    refine congrArg _ (funext fun a => Fin.ext ?_)
    match a with
    | ⟨0, _⟩ => show win1_1.index t (0 : Fin 2) * 1024 + 1 * k.val = k.val; omega
    | ⟨1, _⟩ => show win1_1.index t (1 : Fin 2) * 256 + 1 * n.val = win1_5.index t (1 : Fin 2) * 256 + n.val; omega
  · intro n
    show V c main_arg7 (((cfg1.win 2).blk t).view.emb (ix1 n)) = V c main_arg7 (ix1 _)
    refine congrArg _ (funext fun a => Fin.ext ?_)
    match a with
    | ⟨0, _⟩ => show win1_2.index t (0 : Fin 1) * 256 + 1 * n.val = win1_5.index t (1 : Fin 2) * 256 + n.val; omega
  · intro n
    show V c main_arg9 (((cfg1.win 3).blk t).view.emb (ix1 n)) = V c main_arg9 (ix1 _)
    refine congrArg _ (funext fun a => Fin.ext ?_)
    match a with
    | ⟨0, _⟩ => show win1_3.index t (0 : Fin 1) * 256 + 1 * n.val = win1_5.index t (1 : Fin 2) * 256 + n.val; omega
  · intro n
    show V c main_arg10 (((cfg1.win 4).blk t).view.emb (ix1 n)) = V c main_arg10 (ix1 _)
    refine congrArg _ (funext fun a => Fin.ext ?_)
    match a with
    | ⟨0, _⟩ => show win1_4.index t (0 : Fin 1) * 256 + 1 * n.val = win1_5.index t (1 : Fin 2) * 256 + n.val; omega
  · have he : ((cfg1.win 5).blk t).view.emb (ix2 i n)
        = ix2 i (⟨win1_5.index t (1 : Fin 2) * 256 + n.val, by have := n.isLt; omega⟩ : Fin 2048) := by
      funext a; apply Fin.ext
      match a with
      | ⟨0, _⟩ => show win1_5.index t (0 : Fin 2) * 8192 + 1 * i.val = i.val; omega
      | ⟨1, _⟩ => show win1_5.index t (1 : Fin 2) * 256 + 1 * n.val = win1_5.index t (1 : Fin 2) * 256 + n.val; omega
    rw [he]
    rfl

/-- An index of the output array lies in point `t`'s block iff each coordinate lies in the block's range. -/
theorem mem_blk (t : Fin cfg1.N) (i : S8192x2048.Idx) :
    i ∈ ((cfg1.win 5).blk t).view.set ↔ ∀ a : Fin 2, win1_5.index t a * S8192x256.size a ≤ (i a).val ∧ (i a).val < win1_5.index t a * S8192x256.size a + S8192x256.size a := by
  show i ∈ ((View.whole main_v9).slice (win1_5.rect t)).set ↔ _
  rw [View.set_slice_whole, Rect.mem_set_unit]
  exact Iff.rfl

/-- The column blocks tile the output array: column `n` lies in the block of the point whose index is `n / 256`. -/
theorem cover (i : S8192x2048.Idx) : ∃ t : Fin cfg1.N, (cfg1.win 5).flush t = true ∧ i ∈ ((cfg1.win 5).blk t).view.set := by
  have hi0 : (i 0).val < 8192 := (i 0).isLt
  have hi1 : (i 1).val < 2048 := (i 1).isLt
  obtain ⟨t, ht⟩ := idx_onto ⟨(i 1).val / 256, by omega⟩
  have q0 : win1_5.index t (0 : Fin 2) = 0 := congrFun ht 0
  have q1 : win1_5.index t (1 : Fin 2) = (i 1).val / 256 := congrFun ht 1
  refine ⟨t, flush1_5 t, ?_⟩
  rw [mem_blk]
  intro a
  match a with
  | ⟨0, _⟩ => show win1_5.index t (0 : Fin 2) * 8192 ≤ (i 0).val ∧ (i 0).val < win1_5.index t (0 : Fin 2) * 8192 + 8192; omega
  | ⟨1, _⟩ => show win1_5.index t (1 : Fin 2) * 256 ≤ (i 1).val ∧ (i 1).val < win1_5.index t (1 : Fin 2) * 256 + 256; omega

/-- The output array after the region: the layer's formula of the arrays the region found. -/
theorem final (c : Dev nD) : (dat1 V c).arrAt 5 cfg1.N = G V c :=
  (dat1 V c).arrAt_eq_of_cover 5 (G V c) (fun t _ => flushed_eq V c t) cover

end Cert.KernelIdeal.Reg1

end
-- ==== Proof.KReg2.lean ====
/-
  The third kernel region, read as a value. Its grid walks the output array in blocks of 2048 rows by 512 columns; a
  block holds the matching 2048 rows of the second layer's activations (all of their columns), the matching 512 columns
  of the transposed masked weights, and the matching entries of the bias. What a grid point writes back is its block of
  ONE whole-array function of the arrays the region finds — the linear layer — and the blocks tile the output array.
-/
import proofs.«143171_j21096879358070_2_alg».proof.Proof.Gen.KernelIdeal.Frame
import proofs.«143171_j21096879358070_2_alg».proof.Proof.KLayer
import proofs.«143171_j21096879358070_2_alg».proof.Proof.MlpCongr

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The value the body stores is the block's linear part (a cast of a shape to itself is the identity). -/
theorem pay_eq (x0 : Vec Ideal S2048x2048 .f32) (x1 : Vec Ideal S2048x512 .f32) (x2 : Vec Ideal S512 .f32) :
    k2_pay1 x0 x1 x2 = Mlp.Block.lin (φ₁ := .f32) (φ₂ := .f32) dot_S2048x2048_S2048x512_S2048x512_1_0_0_1_n_n shapeCasts_S512_S1x512
      broadcasts_S1x512_S2048x512 x0 x1 x2 := by
  rw [show k2_pay1 x0 x1 x2 = Mlp.Block.lin (φ₁ := .f32) (φ₂ := .f32) dot_S2048x2048_S2048x512_S2048x512_1_0_0_1_n_n shapeCasts_S512_S1x512
      broadcasts_S1x512_S2048x512 (shapeCast S2048x2048 x0 shapeCasts_S2048x2048_S2048x2048)
        (shapeCast S2048x512 x1 shapeCasts_S2048x512_S2048x512) x2 from rfl]
  rw [shapeCast_self, shapeCast_self]

/-- One entry of one block. If the block's inputs are rows `p·2048 …` of the activations, columns `q·512 …` of the
    transposed weights and the same columns of the bias, then entry `(i, n)` of what the body stores is the layer's
    entry `(p·2048 + i, q·512 + n)`. -/
theorem block_entry (X : S8192x2048.Idx → EReal) (Wt : S2048x4096.Idx → EReal) (b : S4096.Idx → EReal)
    (x0 : Vec Ideal S2048x2048 .f32) (x1 : Vec Ideal S2048x512 .f32) (x2 : Vec Ideal S512 .f32)
    (p q : ℕ) (hp : p ≤ 3) (hq : q ≤ 7)
    (h0 : ∀ (i : Fin 2048) (k : Fin 2048), x0 (ix2 i k) = X (ix2 ⟨p * 2048 + i.val, by have := i.isLt; omega⟩ k))
    (h1 : ∀ (k : Fin 2048) (n : Fin 512), x1 (ix2 k n) = Wt (ix2 k ⟨q * 512 + n.val, by have := n.isLt; omega⟩))
    (h2 : ∀ n : Fin 512, x2 (ix1 n) = b (ix1 ⟨q * 512 + n.val, by have := n.isLt; omega⟩))
    (i : Fin 2048) (n : Fin 512) :
    k2_pay1 x0 x1 x2 (ix2 i n)
      = Mlp.lin (fun i k => X (ix2 i k)) (fun n k => Wt (ix2 k n)) (fun n => b (ix1 n))
          (⟨p * 2048 + i.val, by have := i.isLt; omega⟩ : Fin 8192) (⟨q * 512 + n.val, by have := n.isLt; omega⟩ : Fin 4096) := by
  rw [pay_eq]
  refine (Mlp.Block.lin_apply (φ₁ := .f32) (φ₂ := .f32) dot_S2048x2048_S2048x512_S2048x512_1_0_0_1_n_n rfl shapeCasts_S512_S1x512
    broadcasts_S1x512_S2048x512 x0 x1 x2 i n).trans ?_
  exact Mlp.lin_congr _ _ _ _ _ _ i _ n _ (fun k => h0 i k) (fun k => h1 k n) (h2 n)

/-- What the region leaves in its output array, as ONE function of the arrays it finds at its entry. -/
def G (c : Dev nD) : S8192x4096.Idx → EReal := fun j =>
  Mlp.lin (B := 8192) (K := 2048) (N := 4096) (fun i k => V c main_v9 (ix2 i k)) (fun n k => V c main_v12 (ix2 k n))
    (fun n => V c main_arg12 (ix1 n)) (j 0) (j 1)

/-- The printed index maps, decided over the grid: the activations' window moves along the rows with the output's, the
    weights' and the bias's along the columns. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 1) = win2_3.index t (1 : Fin 2)
    ∧ win2_3.index t (0 : Fin 2) ≤ 3 ∧ win2_3.index t (1 : Fin 2) ≤ 7 :=
  (by decide +kernel : ∀ t : Fin grid2.N, _)

/-- Every block of the output array is some grid point's. -/
theorem idx_onto : ∀ (p : Fin 4) (q : Fin 8), ∃ t : Fin cfg2.N, win2_3.index t = ![p.val, q.val] :=
  (by decide +kernel : ∀ (p : Fin 4) (q : Fin 8), ∃ t : Fin grid2.N, win2_3.index t = ![p.val, q.val])

/-- What grid point `t` writes back is block `t` of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz2]
  simp only [View.ld_unit_zero (S := S2048x2048) hz2, View.ld_unit_zero (S := S2048x512) hz2, View.ld_unit_zero (S := S512) hz1]
  obtain ⟨e00, e01, e10, e11, e2, e30, e31⟩ := idx_facts t
  funext y
  obtain ⟨i, n, rfl⟩ : ∃ (i : Fin 2048) (n : Fin 512), y = ix2 i n := ⟨y 0, y 1, eq_ix2 y⟩
  show k2_pay1 (iblk2 V c 0 t) (iblk2 V c 1 t) (iblk2 V c 2 t) (ix2 i n)
    = G V c (((cfg2.win 3).blk t).view.emb (ix2 i n))
  refine (block_entry (V c main_v9) (V c main_v12) (V c main_arg12)
    (iblk2 V c 0 t) (iblk2 V c 1 t) (iblk2 V c 2 t)
    (win2_3.index t (0 : Fin 2)) (win2_3.index t (1 : Fin 2)) e30 e31 ?_ ?_ ?_ i n).trans ?_
  · intro i k
    show V c main_v9 (((cfg2.win 0).blk t).view.emb (ix2 i k)) = V c main_v9 (ix2 _ k)
    refine congrArg _ (funext fun a => Fin.ext ?_)
    match a with
    | ⟨0, _⟩ => show win2_0.index t (0 : Fin 2) * 2048 + 1 * i.val = win2_3.index t (0 : Fin 2) * 2048 + i.val; omega
    | ⟨1, _⟩ => show win2_0.index t (1 : Fin 2) * 2048 + 1 * k.val = k.val; omega
  · intro k n
    show V c main_v12 (((cfg2.win 1).blk t).view.emb (ix2 k n)) = V c main_v12 (ix2 k _)
    refine congrArg _ (funext fun a => Fin.ext ?_)
    match a with
    | ⟨0, _⟩ => show win2_1.index t (0 : Fin 2) * 2048 + 1 * k.val = k.val; omega
    | ⟨1, _⟩ => show win2_1.index t (1 : Fin 2) * 512 + 1 * n.val = win2_3.index t (1 : Fin 2) * 512 + n.val; omega
  · intro n
    show V c main_arg12 (((cfg2.win 2).blk t).view.emb (ix1 n)) = V c main_arg12 (ix1 _)
    refine congrArg _ (funext fun a => Fin.ext ?_)
    match a with
    | ⟨0, _⟩ => show win2_2.index t (0 : Fin 1) * 512 + 1 * n.val = win2_3.index t (1 : Fin 2) * 512 + n.val; omega
  · have he : ((cfg2.win 3).blk t).view.emb (ix2 i n)
        = ix2 (⟨win2_3.index t (0 : Fin 2) * 2048 + i.val, by have := i.isLt; omega⟩ : Fin 8192)
            (⟨win2_3.index t (1 : Fin 2) * 512 + n.val, by have := n.isLt; omega⟩ : Fin 4096) := by
      funext a; apply Fin.ext
      match a with
      | ⟨0, _⟩ => show win2_3.index t (0 : Fin 2) * 2048 + 1 * i.val = win2_3.index t (0 : Fin 2) * 2048 + i.val; omega
      | ⟨1, _⟩ => show win2_3.index t (1 : Fin 2) * 512 + 1 * n.val = win2_3.index t (1 : Fin 2) * 512 + n.val; omega
    rw [he]
    rfl

/-- An index of the output array lies in point `t`'s block iff each coordinate lies in the block's range. -/
theorem mem_blk (t : Fin cfg2.N) (i : S8192x4096.Idx) :
    i ∈ ((cfg2.win 3).blk t).view.set ↔ ∀ a : Fin 2, win2_3.index t a * S2048x512.size a ≤ (i a).val ∧ (i a).val < win2_3.index t a * S2048x512.size a + S2048x512.size a := by
  show i ∈ ((View.whole main_v13).slice (win2_3.rect t)).set ↔ _
  rw [View.set_slice_whole, Rect.mem_set_unit]
  exact Iff.rfl

/-- The blocks tile the output array: entry `(r, n)` lies in the block of the point with indices `(r / 2048, n / 512)`. -/
theorem cover (i : S8192x4096.Idx) : ∃ t : Fin cfg2.N, (cfg2.win 3).flush t = true ∧ i ∈ ((cfg2.win 3).blk t).view.set := by
  have hi0 : (i 0).val < 8192 := (i 0).isLt
  have hi1 : (i 1).val < 4096 := (i 1).isLt
  obtain ⟨t, ht⟩ := idx_onto ⟨(i 0).val / 2048, by omega⟩ ⟨(i 1).val / 512, by omega⟩
  have q0 : win2_3.index t (0 : Fin 2) = (i 0).val / 2048 := congrFun ht 0
  have q1 : win2_3.index t (1 : Fin 2) = (i 1).val / 512 := congrFun ht 1
  refine ⟨t, flush2_3 t, ?_⟩
  rw [mem_blk]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 512 ≤ (i 1).val ∧ (i 1).val < win2_3.index t (1 : Fin 2) * 512 + 512; omega

/-- The output array after the region: the layer's formula of the arrays the region found. -/
theorem final (c : Dev nD) : (dat2 V c).arrAt 3 cfg2.N = G V c :=
  (dat2 V c).arrAt_eq_of_cover 3 (G V c) (fun t _ => flushed_eq V c t) cover

end Cert.KernelIdeal.Reg2

end
-- ==== Proof.KChain.lean ====
/-
  The three regions and the host stretches between them, composed. Each region's output array is one function of the
  arrays it finds; the arrays a region finds are argument arrays (unchanged since the launch), the transposed masked
  weights the stretch before it computed, and (for the second and third regions) the array the region before it left.
  Read through, the result buffer ends holding the network of the fourteen argument arrays.
-/
import proofs.«143171_j21096879358070_2_alg».proof.Proof.KRun
import proofs.«143171_j21096879358070_2_alg».proof.Proof.KHost
import proofs.«143171_j21096879358070_2_alg».proof.Proof.KReg0
import proofs.«143171_j21096879358070_2_alg».proof.Proof.KReg1
import proofs.«143171_j21096879358070_2_alg».proof.Proof.KReg2

set_option maxRecDepth 16384

noncomputable section

namespace Cert.KernelIdeal.KChain

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The first layer -/

/-- The first layer's activations, of the argument arrays. -/
def A1 (c : Dev nD) : S8192x1024.Idx → EReal := fun j =>
  Mlp.hidden (B := 8192) (K := 256) (N := 1024) (fun i k => (m ((c : Thread nD τ).loc main_arg0)) (ix2 i k)) (Mlp.masked (m ((c : Thread nD τ).loc main_arg1)) (m ((c : Thread nD τ).loc main_arg3)))
    (fun n => (m ((c : Thread nD τ).loc main_arg2)) (ix1 n)) (fun n => (m ((c : Thread nD τ).loc main_arg4)) (ix1 n)) (fun n => (m ((c : Thread nD τ).loc main_arg5)) (ix1 n)) (j 0) (j 1)

theorem V1_arg0 (c : Dev nD) : V1 m ρ c main_arg0 = (m ((c : Thread nD τ).loc main_arg0)) := ((KHost.hostOps0_main_arg0 (W0 m ρ c)).trans rfl)
theorem V1_arg2 (c : Dev nD) : V1 m ρ c main_arg2 = (m ((c : Thread nD τ).loc main_arg2)) := ((KHost.hostOps0_main_arg2 (W0 m ρ c)).trans rfl)
theorem V1_arg4 (c : Dev nD) : V1 m ρ c main_arg4 = (m ((c : Thread nD τ).loc main_arg4)) := ((KHost.hostOps0_main_arg4 (W0 m ρ c)).trans rfl)
theorem V1_arg5 (c : Dev nD) : V1 m ρ c main_arg5 = (m ((c : Thread nD τ).loc main_arg5)) := ((KHost.hostOps0_main_arg5 (W0 m ρ c)).trans rfl)

theorem V1_v3 (c : Dev nD) (k : Fin 256) (n : Fin 1024) :
    V1 m ρ c main_v3 (ix2 k n) = Mlp.masked (m ((c : Thread nD τ).loc main_arg1)) (m ((c : Thread nD τ).loc main_arg3)) n k := by
  have e := KHost.hostOps0_main_v3 (W0 m ρ c)
  refine (congrFun e (ix2 k n)).trans ?_
  exact KHost.wT_bf16_apply (m ((c : Thread nD τ).loc main_arg1)) (m ((c : Thread nD τ).loc main_arg3)) _ _ k n

theorem G0_eq (c : Dev nD) : Reg0.G (V1 m ρ) c = A1 m c := by
  funext j
  show Mlp.hidden (B := 8192) (K := 256) (N := 1024) (fun i k => V1 m ρ c main_arg0 (ix2 i k)) (fun n k => V1 m ρ c main_v3 (ix2 k n))
    (fun n => V1 m ρ c main_arg2 (ix1 n)) (fun n => V1 m ρ c main_arg4 (ix1 n)) (fun n => V1 m ρ c main_arg5 (ix1 n)) (j 0) (j 1) = _
  rw [V1_arg0 m ρ c, V1_arg2 m ρ c, V1_arg4 m ρ c, V1_arg5 m ρ c,
    show (fun (n : Fin 1024) (k : Fin 256) => V1 m ρ c main_v3 (ix2 k n)) = Mlp.masked (m ((c : Thread nD τ).loc main_arg1)) (m ((c : Thread nD τ).loc main_arg3))
      from funext fun n => funext fun k => V1_v3 m ρ c k n]
  rfl

/-! ## The second layer -/

/-- The second layer's activations, of the argument arrays. -/
def A2 (c : Dev nD) : S8192x2048.Idx → EReal := fun j =>
  Mlp.hidden (B := 8192) (K := 1024) (N := 2048) (fun i k => A1 m c (ix2 i k)) (Mlp.masked (m ((c : Thread nD τ).loc main_arg6)) (m ((c : Thread nD τ).loc main_arg8)))
    (fun n => (m ((c : Thread nD τ).loc main_arg7)) (ix1 n)) (fun n => (m ((c : Thread nD τ).loc main_arg9)) (ix1 n)) (fun n => (m ((c : Thread nD τ).loc main_arg10)) (ix1 n)) (j 0) (j 1)

theorem V3_v4 (c : Dev nD) : V3 m ρ c main_v4 = A1 m c :=
  (KHost.hostOps1_main_v4 (W2 m ρ c)).trans ((W2_arr m ρ c 5).trans ((Reg0.final (V1 m ρ) c).trans (G0_eq m ρ c)))
theorem V3_arg7 (c : Dev nD) : V3 m ρ c main_arg7 = (m ((c : Thread nD τ).loc main_arg7)) := ((KHost.hostOps1_main_arg7 (W2 m ρ c)).trans ((W2_of_ne m ρ c main_arg7 (by decide)).trans ((KHost.hostOps0_main_arg7 (W0 m ρ c)).trans rfl)))
theorem V3_arg9 (c : Dev nD) : V3 m ρ c main_arg9 = (m ((c : Thread nD τ).loc main_arg9)) := ((KHost.hostOps1_main_arg9 (W2 m ρ c)).trans ((W2_of_ne m ρ c main_arg9 (by decide)).trans ((KHost.hostOps0_main_arg9 (W0 m ρ c)).trans rfl)))
theorem V3_arg10 (c : Dev nD) : V3 m ρ c main_arg10 = (m ((c : Thread nD τ).loc main_arg10)) := ((KHost.hostOps1_main_arg10 (W2 m ρ c)).trans ((W2_of_ne m ρ c main_arg10 (by decide)).trans ((KHost.hostOps0_main_arg10 (W0 m ρ c)).trans rfl)))
theorem W2_arg6 (c : Dev nD) : W2 m ρ c (Proc.devRef .tc main_arg6) = (m ((c : Thread nD τ).loc main_arg6)) := ((W2_of_ne m ρ c main_arg6 (by decide)).trans ((KHost.hostOps0_main_arg6 (W0 m ρ c)).trans rfl))
theorem W2_arg8 (c : Dev nD) : W2 m ρ c (Proc.devRef .tc main_arg8) = (m ((c : Thread nD τ).loc main_arg8)) := ((W2_of_ne m ρ c main_arg8 (by decide)).trans ((KHost.hostOps0_main_arg8 (W0 m ρ c)).trans rfl))

theorem V3_v8 (c : Dev nD) (k : Fin 1024) (n : Fin 2048) :
    V3 m ρ c main_v8 (ix2 k n) = Mlp.masked (m ((c : Thread nD τ).loc main_arg6)) (m ((c : Thread nD τ).loc main_arg8)) n k := by
  have e := KHost.hostOps1_main_v8 (W2 m ρ c)
  rw [W2_arg6 m ρ c, W2_arg8 m ρ c] at e
  refine (congrFun e (ix2 k n)).trans ?_
  exact KHost.wT_bf16_apply (m ((c : Thread nD τ).loc main_arg6)) (m ((c : Thread nD τ).loc main_arg8)) _ _ k n

theorem G1_eq (c : Dev nD) : Reg1.G (V3 m ρ) c = A2 m c := by
  funext j
  show Mlp.hidden (B := 8192) (K := 1024) (N := 2048) (fun i k => V3 m ρ c main_v4 (ix2 i k)) (fun n k => V3 m ρ c main_v8 (ix2 k n))
    (fun n => V3 m ρ c main_arg7 (ix1 n)) (fun n => V3 m ρ c main_arg9 (ix1 n)) (fun n => V3 m ρ c main_arg10 (ix1 n)) (j 0) (j 1) = _
  rw [V3_v4 m ρ c, V3_arg7 m ρ c, V3_arg9 m ρ c, V3_arg10 m ρ c,
    show (fun (n : Fin 2048) (k : Fin 1024) => V3 m ρ c main_v8 (ix2 k n)) = Mlp.masked (m ((c : Thread nD τ).loc main_arg6)) (m ((c : Thread nD τ).loc main_arg8))
      from funext fun n => funext fun k => V3_v8 m ρ c k n]
  rfl

/-! ## The third layer -/

/-- The network's output, of the argument arrays. -/
def A3 (c : Dev nD) : S8192x4096.Idx → EReal := fun j =>
  Mlp.lin (B := 8192) (K := 2048) (N := 4096) (fun i k => A2 m c (ix2 i k)) (Mlp.masked (m ((c : Thread nD τ).loc main_arg11)) (m ((c : Thread nD τ).loc main_arg13)))
    (fun n => (m ((c : Thread nD τ).loc main_arg12)) (ix1 n)) (j 0) (j 1)

theorem V5_v9 (c : Dev nD) : V5 m ρ c main_v9 = A2 m c :=
  (KHost.hostOps2_main_v9 (W4 m ρ c)).trans ((W4_arr m ρ c 5).trans ((Reg1.final (V3 m ρ) c).trans (G1_eq m ρ c)))
theorem V5_arg12 (c : Dev nD) : V5 m ρ c main_arg12 = (m ((c : Thread nD τ).loc main_arg12)) := ((KHost.hostOps2_main_arg12 (W4 m ρ c)).trans ((W4_of_ne m ρ c main_arg12 (by decide)).trans ((KHost.hostOps1_main_arg12 (W2 m ρ c)).trans ((W2_of_ne m ρ c main_arg12 (by decide)).trans ((KHost.hostOps0_main_arg12 (W0 m ρ c)).trans rfl)))))
theorem W4_arg11 (c : Dev nD) : W4 m ρ c (Proc.devRef .tc main_arg11) = (m ((c : Thread nD τ).loc main_arg11)) := ((W4_of_ne m ρ c main_arg11 (by decide)).trans ((KHost.hostOps1_main_arg11 (W2 m ρ c)).trans ((W2_of_ne m ρ c main_arg11 (by decide)).trans ((KHost.hostOps0_main_arg11 (W0 m ρ c)).trans rfl))))
theorem W4_arg13 (c : Dev nD) : W4 m ρ c (Proc.devRef .tc main_arg13) = (m ((c : Thread nD τ).loc main_arg13)) := ((W4_of_ne m ρ c main_arg13 (by decide)).trans ((KHost.hostOps1_main_arg13 (W2 m ρ c)).trans ((W2_of_ne m ρ c main_arg13 (by decide)).trans ((KHost.hostOps0_main_arg13 (W0 m ρ c)).trans rfl))))

theorem V5_v12 (c : Dev nD) (k : Fin 2048) (n : Fin 4096) :
    V5 m ρ c main_v12 (ix2 k n) = Mlp.masked (m ((c : Thread nD τ).loc main_arg11)) (m ((c : Thread nD τ).loc main_arg13)) n k := by
  have e := KHost.hostOps2_main_v12 (W4 m ρ c)
  rw [W4_arg11 m ρ c, W4_arg13 m ρ c] at e
  refine (congrFun e (ix2 k n)).trans ?_
  exact KHost.wT_f32_apply (m ((c : Thread nD τ).loc main_arg11)) (m ((c : Thread nD τ).loc main_arg13)) _ k n

theorem G2_eq (c : Dev nD) : Reg2.G (V5 m ρ) c = A3 m c := by
  funext j
  show Mlp.lin (B := 8192) (K := 2048) (N := 4096) (fun i k => V5 m ρ c main_v9 (ix2 i k)) (fun n k => V5 m ρ c main_v12 (ix2 k n))
    (fun n => V5 m ρ c main_arg12 (ix1 n)) (j 0) (j 1) = _
  rw [V5_v9 m ρ c, V5_arg12 m ρ c,
    show (fun (n : Fin 4096) (k : Fin 2048) => V5 m ρ c main_v12 (ix2 k n)) = Mlp.masked (m ((c : Thread nD τ).loc main_arg11)) (m ((c : Thread nD τ).loc main_arg13))
      from funext fun n => funext fun k => V5_v12 m ρ c k n]
  rfl

/-- The result buffer's final contents: the network of the argument arrays. -/
theorem W6_v13 (c : Dev nD) : W6 m ρ c (Proc.devRef .tc main_v13)
    = Mlp.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W6_arr m ρ c 3).trans ((Reg2.final (V5 m ρ) c).trans ((G2_eq m ρ c).trans rfl))

/-- The idealized kernel's run: every weakly fair execution terminates with the result buffer at the network of the
    argument arrays, and the argument arrays unchanged. -/
theorem run : θ_run defs (onTc (τ := τ) (main (F := Ideal))) ⟨m, fun _ => 0, ρ⟩ (fun r => ∀ c : Dev nD,
      r.2.mem ((c.tc : Thread nD τ).loc main_v13)
        = Mlp.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W6_v13 m ρ c), (h c).2⟩) (KRun.run (F := Ideal) m ρ)

end Cert.KernelIdeal.KChain

end
-- ==== Proof.RefRun.lean ====
/-
  The reference program's run, read back. @main of the reference (a masked three-layer perceptron:
  linear, batch normalisation and relu twice, then linear) is a straight line of StableHLO operations once
  the module-local functions it calls (`_var`, which calls `_where`; `relu`; and their second copies) are
  unfolded at their call sites over the calls' buffer records: 112 operations, the callees' listed inline at
  the call over the record's typed references. The run is the library's `run_seq`: every weakly fair
  execution terminates with each buffer at the fold of the operations' results (`after`) over the launch
  contents.
-/
import proofs.«143171_j21096879358070_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 112 operations in order, the calls unfolded. The first layer is fifty-three: twelve of its own (the
    masked product, the bias, the column mean and the integer zero), `_var`'s nineteen and its `_where`'s three,
    sixteen of normalisation and affine map, `relu`'s three. The second layer is the same fifty-three at its
    shapes; the last layer's six follow. -/
abbrev ops : List (HloOp τ sig (Elt F)) :=
  [ unary main_arg3 main_v0 (sitofp .f32 : (⟨S1024x256, .i32⟩ : BufTy).Contents (Elt F) → (⟨S1024x256, .f32⟩ : BufTy).Contents (Elt F)),
    binary main_arg1 main_v0 main_v1 (mulf : (⟨S1024x256, .f32⟩ : BufTy).Contents (Elt F) → (⟨S1024x256, .f32⟩ : BufTy).Contents (Elt F) → (⟨S1024x256, .f32⟩ : BufTy).Contents (Elt F)),
    binary main_arg0 main_v1 main_v2 ((fun l r => Host.dotGeneral dot_S8192x256_S1024x256_S8192x1024_1_1_0_0_n_n none l r) : (⟨S8192x256, .f32⟩ : BufTy).Contents (Elt F) → (⟨S1024x256, .f32⟩ : BufTy).Contents (Elt F) → (⟨S8192x1024, .f32⟩ : BufTy).Contents (Elt F)),
    unary main_arg2 main_v3 (broadcastInDim S1x1024 ![1] bcast_S1024_S1x1024_1 : (⟨S1024, .f32⟩ : BufTy).Contents (Elt F) → (⟨S1x1024, .f32⟩ : BufTy).Contents (Elt F)),
    unary main_v3 main_v4 (broadcastInDim S8192x1024 ![0, 1] bcast_S1x1024_S8192x1024_0_1 : (⟨S1x1024, .f32⟩ : BufTy).Contents (Elt F) → (⟨S8192x1024, .f32⟩ : BufTy).Contents (Elt F)),
    binary main_v2 main_v4 main_v5 (addf : (⟨S8192x1024, .f32⟩ : BufTy).Contents (Elt F) → (⟨S8192x1024, .f32⟩ : BufTy).Contents (Elt F) → (⟨S8192x1024, .f32⟩ : BufTy).Contents (Elt F)),
    nullary main_cst (constant S_ .f32 0x00000000#32),
    binary main_v5 main_cst main_v6 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    nullary main_cst_0 (constant S_ .f32 0x46000000#32),
    unary main_cst_0 main_v7 (broadcastInDim S1024 ![] bcast_S_S1024 : (⟨S_, .f32⟩ : BufTy).Contents (Elt F) → (⟨S1024, .f32⟩ : BufTy).Contents (Elt F)),
    binary main_v6 main_v7 main_v8 (Host.divf : (⟨S1024, .f32⟩ : BufTy).Contents (Elt F) → (⟨S1024, .f32⟩ : BufTy).Contents (Elt F) → (⟨S1024, .f32⟩ : BufTy).Contents (Elt F)),
    nullary main_c (constantI S_ 32 0#32),
    TRef.nullary main_call0.cst (constant S_ .f32 0x00000000#32),
    TRef.binary (.of main_v5) main_call0.cst main_call0.v0 (fun x v => Host.reduceAdd x v reducesTo_S8192x1024_S1024_d0 h_S_),
    TRef.unary main_call0.v0 main_call0.v1 (broadcastInDim S1x1024 ![1] bcast_S1024_S1x1024_1),
    TRef.nullary main_call0.cst_0 (constant S_ .f32 0x46000000#32),
    TRef.unary main_call0.cst_0 main_call0.v2 (broadcastInDim S1x1024 ![] bcast_S_S1x1024),
    TRef.binary main_call0.v1 main_call0.v2 main_call0.v3 Host.divf,
    TRef.unary main_call0.v3 main_call0.v4 (broadcastInDim S8192x1024 ![0, 1] bcast_S1x1024_S8192x1024_0_1),
    TRef.binary (.of main_v5) main_call0.v4 main_call0.v5 subf,
    TRef.binary main_call0.v5 main_call0.v5 main_call0.v6 mulf,
    TRef.unary (.of main_c) main_call0.v7 (sitofp .f32),
    TRef.nullary main_call0.cst_1 (constant S_ .f32 0x46000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x1024_S1024_d0 h_S_),
    TRef.unary main_call0.v8 main_call0.v10 (broadcastInDim S1024 ![] bcast_S_S1024),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S1024 ![] bcast_S_S1024),
    TRef.ternary main_call0.v12 main_call0.v11 main_call0.call0.v1 main_call0.call0.v2 (fun p a b => select (broadcastInDim S1024 ![] bcast_S_S1024 p) a b),
    unary main_v8 main_v10 (broadcastInDim S1x1024 ![1] bcast_S1024_S1x1024_1 : (⟨S1024, .f32⟩ : BufTy).Contents (Elt F) → (⟨S1x1024, .f32⟩ : BufTy).Contents (Elt F)),
    unary main_v10 main_v11 (broadcastInDim S8192x1024 ![0, 1] bcast_S1x1024_S8192x1024_0_1 : (⟨S1x1024, .f32⟩ : BufTy).Contents (Elt F) → (⟨S8192x1024, .f32⟩ : BufTy).Contents (Elt F)),
    binary main_v5 main_v11 main_v12 (subf : (⟨S8192x1024, .f32⟩ : BufTy).Contents (Elt F) → (⟨S8192x1024, .f32⟩ : BufTy).Contents (Elt F) → (⟨S8192x1024, .f32⟩ : BufTy).Contents (Elt F)),
    nullary main_cst_1 (constant S_ .f32 0x3727C5AC#32),
    unary main_cst_1 main_v13 (broadcastInDim S1024 ![] bcast_S_S1024 : (⟨S_, .f32⟩ : BufTy).Contents (Elt F) → (⟨S1024, .f32⟩ : BufTy).Contents (Elt F)),
    binary main_v9 main_v13 main_v14 (addf : (⟨S1024, .f32⟩ : BufTy).Contents (Elt F) → (⟨S1024, .f32⟩ : BufTy).Contents (Elt F) → (⟨S1024, .f32⟩ : BufTy).Contents (Elt F)),
    unary main_v14 main_v15 (Host.rsqrt : (⟨S1024, .f32⟩ : BufTy).Contents (Elt F) → (⟨S1024, .f32⟩ : BufTy).Contents (Elt F)),
    unary main_v15 main_v16 (broadcastInDim S1x1024 ![1] bcast_S1024_S1x1024_1 : (⟨S1024, .f32⟩ : BufTy).Contents (Elt F) → (⟨S1x1024, .f32⟩ : BufTy).Contents (Elt F)),
    unary main_v16 main_v17 (broadcastInDim S8192x1024 ![0, 1] bcast_S1x1024_S8192x1024_0_1 : (⟨S1x1024, .f32⟩ : BufTy).Contents (Elt F) → (⟨S8192x1024, .f32⟩ : BufTy).Contents (Elt F)),
    binary main_v12 main_v17 main_v18 (mulf : (⟨S8192x1024, .f32⟩ : BufTy).Contents (Elt F) → (⟨S8192x1024, .f32⟩ : BufTy).Contents (Elt F) → (⟨S8192x1024, .f32⟩ : BufTy).Contents (Elt F)),
    unary main_arg4 main_v19 (broadcastInDim S1x1024 ![1] bcast_S1024_S1x1024_1 : (⟨S1024, .f32⟩ : BufTy).Contents (Elt F) → (⟨S1x1024, .f32⟩ : BufTy).Contents (Elt F)),
    unary main_v19 main_v20 (broadcastInDim S8192x1024 ![0, 1] bcast_S1x1024_S8192x1024_0_1 : (⟨S1x1024, .f32⟩ : BufTy).Contents (Elt F) → (⟨S8192x1024, .f32⟩ : BufTy).Contents (Elt F)),
    binary main_v18 main_v20 main_v21 (mulf : (⟨S8192x1024, .f32⟩ : BufTy).Contents (Elt F) → (⟨S8192x1024, .f32⟩ : BufTy).Contents (Elt F) → (⟨S8192x1024, .f32⟩ : BufTy).Contents (Elt F)),
    unary main_arg5 main_v22 (broadcastInDim S1x1024 ![1] bcast_S1024_S1x1024_1 : (⟨S1024, .f32⟩ : BufTy).Contents (Elt F) → (⟨S1x1024, .f32⟩ : BufTy).Contents (Elt F)),
    unary main_v22 main_v23 (broadcastInDim S8192x1024 ![0, 1] bcast_S1x1024_S8192x1024_0_1 : (⟨S1x1024, .f32⟩ : BufTy).Contents (Elt F) → (⟨S8192x1024, .f32⟩ : BufTy).Contents (Elt F)),
    binary main_v21 main_v23 main_v24 (addf : (⟨S8192x1024, .f32⟩ : BufTy).Contents (Elt F) → (⟨S8192x1024, .f32⟩ : BufTy).Contents (Elt F) → (⟨S8192x1024, .f32⟩ : BufTy).Contents (Elt F)),
    TRef.nullary main_call1.cst (constant S_ .f32 0x00000000#32),
    TRef.unary main_call1.cst main_call1.v0 (broadcastInDim S8192x1024 ![] bcast_S_S8192x1024),
    TRef.binary (.of main_v24) main_call1.v0 main_call1.v1 maximumf,
    unary main_arg8 main_v26 (sitofp .f32 : (⟨S2048x1024, .i32⟩ : BufTy).Contents (Elt F) → (⟨S2048x1024, .f32⟩ : BufTy).Contents (Elt F)),
    binary main_arg6 main_v26 main_v27 (mulf : (⟨S2048x1024, .f32⟩ : BufTy).Contents (Elt F) → (⟨S2048x1024, .f32⟩ : BufTy).Contents (Elt F) → (⟨S2048x1024, .f32⟩ : BufTy).Contents (Elt F)),
    binary main_v25 main_v27 main_v28 ((fun l r => Host.dotGeneral dot_S8192x1024_S2048x1024_S8192x2048_1_1_0_0_n_n none l r) : (⟨S8192x1024, .f32⟩ : BufTy).Contents (Elt F) → (⟨S2048x1024, .f32⟩ : BufTy).Contents (Elt F) → (⟨S8192x2048, .f32⟩ : BufTy).Contents (Elt F)),
    unary main_arg7 main_v29 (broadcastInDim S1x2048 ![1] bcast_S2048_S1x2048_1 : (⟨S2048, .f32⟩ : BufTy).Contents (Elt F) → (⟨S1x2048, .f32⟩ : BufTy).Contents (Elt F)),
    unary main_v29 main_v30 (broadcastInDim S8192x2048 ![0, 1] bcast_S1x2048_S8192x2048_0_1 : (⟨S1x2048, .f32⟩ : BufTy).Contents (Elt F) → (⟨S8192x2048, .f32⟩ : BufTy).Contents (Elt F)),
    binary main_v28 main_v30 main_v31 (addf : (⟨S8192x2048, .f32⟩ : BufTy).Contents (Elt F) → (⟨S8192x2048, .f32⟩ : BufTy).Contents (Elt F) → (⟨S8192x2048, .f32⟩ : BufTy).Contents (Elt F)),
    nullary main_cst_2 (constant S_ .f32 0x00000000#32),
    binary main_v31 main_cst_2 main_v32 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    nullary main_cst_3 (constant S_ .f32 0x46000000#32),
    unary main_cst_3 main_v33 (broadcastInDim S2048 ![] bcast_S_S2048 : (⟨S_, .f32⟩ : BufTy).Contents (Elt F) → (⟨S2048, .f32⟩ : BufTy).Contents (Elt F)),
    binary main_v32 main_v33 main_v34 (Host.divf : (⟨S2048, .f32⟩ : BufTy).Contents (Elt F) → (⟨S2048, .f32⟩ : BufTy).Contents (Elt F) → (⟨S2048, .f32⟩ : BufTy).Contents (Elt F)),
    nullary main_c_4 (constantI S_ 32 0#32),
    TRef.nullary main_call2.cst (constant S_ .f32 0x00000000#32),
    TRef.binary (.of main_v31) main_call2.cst main_call2.v0 (fun x v => Host.reduceAdd x v reducesTo_S8192x2048_S2048_d0 h_S_),
    TRef.unary main_call2.v0 main_call2.v1 (broadcastInDim S1x2048 ![1] bcast_S2048_S1x2048_1),
    TRef.nullary main_call2.cst_0 (constant S_ .f32 0x46000000#32),
    TRef.unary main_call2.cst_0 main_call2.v2 (broadcastInDim S1x2048 ![] bcast_S_S1x2048),
    TRef.binary main_call2.v1 main_call2.v2 main_call2.v3 Host.divf,
    TRef.unary main_call2.v3 main_call2.v4 (broadcastInDim S8192x2048 ![0, 1] bcast_S1x2048_S8192x2048_0_1),
    TRef.binary (.of main_v31) main_call2.v4 main_call2.v5 subf,
    TRef.binary main_call2.v5 main_call2.v5 main_call2.v6 mulf,
    TRef.unary (.of main_c_4) main_call2.v7 (sitofp .f32),
    TRef.nullary main_call2.cst_1 (constant S_ .f32 0x46000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S8192x2048_S2048_d0 h_S_),
    TRef.unary main_call2.v8 main_call2.v10 (broadcastInDim S2048 ![] bcast_S_S2048),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S2048 ![] bcast_S_S2048),
    TRef.ternary main_call2.v12 main_call2.v11 main_call2.call0.v1 main_call2.call0.v2 (fun p a b => select (broadcastInDim S2048 ![] bcast_S_S2048 p) a b),
    unary main_v34 main_v36 (broadcastInDim S1x2048 ![1] bcast_S2048_S1x2048_1 : (⟨S2048, .f32⟩ : BufTy).Contents (Elt F) → (⟨S1x2048, .f32⟩ : BufTy).Contents (Elt F)),
    unary main_v36 main_v37 (broadcastInDim S8192x2048 ![0, 1] bcast_S1x2048_S8192x2048_0_1 : (⟨S1x2048, .f32⟩ : BufTy).Contents (Elt F) → (⟨S8192x2048, .f32⟩ : BufTy).Contents (Elt F)),
    binary main_v31 main_v37 main_v38 (subf : (⟨S8192x2048, .f32⟩ : BufTy).Contents (Elt F) → (⟨S8192x2048, .f32⟩ : BufTy).Contents (Elt F) → (⟨S8192x2048, .f32⟩ : BufTy).Contents (Elt F)),
    nullary main_cst_5 (constant S_ .f32 0x3727C5AC#32),
    unary main_cst_5 main_v39 (broadcastInDim S2048 ![] bcast_S_S2048 : (⟨S_, .f32⟩ : BufTy).Contents (Elt F) → (⟨S2048, .f32⟩ : BufTy).Contents (Elt F)),
    binary main_v35 main_v39 main_v40 (addf : (⟨S2048, .f32⟩ : BufTy).Contents (Elt F) → (⟨S2048, .f32⟩ : BufTy).Contents (Elt F) → (⟨S2048, .f32⟩ : BufTy).Contents (Elt F)),
    unary main_v40 main_v41 (Host.rsqrt : (⟨S2048, .f32⟩ : BufTy).Contents (Elt F) → (⟨S2048, .f32⟩ : BufTy).Contents (Elt F)),
    unary main_v41 main_v42 (broadcastInDim S1x2048 ![1] bcast_S2048_S1x2048_1 : (⟨S2048, .f32⟩ : BufTy).Contents (Elt F) → (⟨S1x2048, .f32⟩ : BufTy).Contents (Elt F)),
    unary main_v42 main_v43 (broadcastInDim S8192x2048 ![0, 1] bcast_S1x2048_S8192x2048_0_1 : (⟨S1x2048, .f32⟩ : BufTy).Contents (Elt F) → (⟨S8192x2048, .f32⟩ : BufTy).Contents (Elt F)),
    binary main_v38 main_v43 main_v44 (mulf : (⟨S8192x2048, .f32⟩ : BufTy).Contents (Elt F) → (⟨S8192x2048, .f32⟩ : BufTy).Contents (Elt F) → (⟨S8192x2048, .f32⟩ : BufTy).Contents (Elt F)),
    unary main_arg9 main_v45 (broadcastInDim S1x2048 ![1] bcast_S2048_S1x2048_1 : (⟨S2048, .f32⟩ : BufTy).Contents (Elt F) → (⟨S1x2048, .f32⟩ : BufTy).Contents (Elt F)),
    unary main_v45 main_v46 (broadcastInDim S8192x2048 ![0, 1] bcast_S1x2048_S8192x2048_0_1 : (⟨S1x2048, .f32⟩ : BufTy).Contents (Elt F) → (⟨S8192x2048, .f32⟩ : BufTy).Contents (Elt F)),
    binary main_v44 main_v46 main_v47 (mulf : (⟨S8192x2048, .f32⟩ : BufTy).Contents (Elt F) → (⟨S8192x2048, .f32⟩ : BufTy).Contents (Elt F) → (⟨S8192x2048, .f32⟩ : BufTy).Contents (Elt F)),
    unary main_arg10 main_v48 (broadcastInDim S1x2048 ![1] bcast_S2048_S1x2048_1 : (⟨S2048, .f32⟩ : BufTy).Contents (Elt F) → (⟨S1x2048, .f32⟩ : BufTy).Contents (Elt F)),
    unary main_v48 main_v49 (broadcastInDim S8192x2048 ![0, 1] bcast_S1x2048_S8192x2048_0_1 : (⟨S1x2048, .f32⟩ : BufTy).Contents (Elt F) → (⟨S8192x2048, .f32⟩ : BufTy).Contents (Elt F)),
    binary main_v47 main_v49 main_v50 (addf : (⟨S8192x2048, .f32⟩ : BufTy).Contents (Elt F) → (⟨S8192x2048, .f32⟩ : BufTy).Contents (Elt F) → (⟨S8192x2048, .f32⟩ : BufTy).Contents (Elt F)),
    TRef.nullary main_call3.cst (constant S_ .f32 0x00000000#32),
    TRef.unary main_call3.cst main_call3.v0 (broadcastInDim S8192x2048 ![] bcast_S_S8192x2048),
    TRef.binary (.of main_v50) main_call3.v0 main_call3.v1 maximumf,
    unary main_arg13 main_v52 (sitofp .f32 : (⟨S4096x2048, .i32⟩ : BufTy).Contents (Elt F) → (⟨S4096x2048, .f32⟩ : BufTy).Contents (Elt F)),
    binary main_arg11 main_v52 main_v53 (mulf : (⟨S4096x2048, .f32⟩ : BufTy).Contents (Elt F) → (⟨S4096x2048, .f32⟩ : BufTy).Contents (Elt F) → (⟨S4096x2048, .f32⟩ : BufTy).Contents (Elt F)),
    binary main_v51 main_v53 main_v54 ((fun l r => Host.dotGeneral dot_S8192x2048_S4096x2048_S8192x4096_1_1_0_0_n_n none l r) : (⟨S8192x2048, .f32⟩ : BufTy).Contents (Elt F) → (⟨S4096x2048, .f32⟩ : BufTy).Contents (Elt F) → (⟨S8192x4096, .f32⟩ : BufTy).Contents (Elt F)),
    unary main_arg12 main_v55 (broadcastInDim S1x4096 ![1] bcast_S4096_S1x4096_1 : (⟨S4096, .f32⟩ : BufTy).Contents (Elt F) → (⟨S1x4096, .f32⟩ : BufTy).Contents (Elt F)),
    unary main_v55 main_v56 (broadcastInDim S8192x4096 ![0, 1] bcast_S1x4096_S8192x4096_0_1 : (⟨S1x4096, .f32⟩ : BufTy).Contents (Elt F) → (⟨S8192x4096, .f32⟩ : BufTy).Contents (Elt F)),
    binary main_v54 main_v56 main_v57 (addf : (⟨S8192x4096, .f32⟩ : BufTy).Contents (Elt F) → (⟨S8192x4096, .f32⟩ : BufTy).Contents (Elt F) → (⟨S8192x4096, .f32⟩ : BufTy).Contents (Elt F)) ]

-- 112 binds re-associated: the rewrite under the chain recurses once per statement
set_option maxRecDepth 16384 in
set_option maxHeartbeats 4000000 in
/-- @main is that straight line: the functions' definitions unfolded at their calls, both sides are one chain of
    `hlo` steps once sequencing is reassociated. -/
theorem main_eq (c : Dev nD) : main (F := F) c = seq ops := by
  simp only [main, main_part0, main_part1, fn_var.body, fn_where.body, fn_relu.body, fn_var_0.body, fn_where_1.body,
    fn_relu_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    binary_bufs_sub .., unary_bufs_sub .., unary_bufs_sub .., binary_bufs_sub ..⟩

set_option maxRecDepth 16384 in
set_option maxHeartbeats 4000000 in
/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference program's result, written as one term of its fourteen argument arrays.

  The reference computes three masked linear layers; after each of the first two it normalises every column over the
  batch and applies a relu. Each definition below is the composition of the reference's own array operations for one
  stage, in the order and with the operands the reference uses, at the extended reals: nothing is simplified. The
  stages are written once over the batch size B, the input width K and the output width N; the shape facts the
  operations need are arguments.

  lin     weights times their mask, the product contracting both operands' second axis, plus the bias spread
          [N] → [1, N] → [B, N];
  mean    the column sums from the zero word, divided by the batch-size word spread to [N];
  var     the reference's variance routine: it recomputes the column means through [1, N] arrays, centres, squares,
          sums, divides by (batch-size word − the integer correction 0 converted to a float) and returns that quotient
          where the divisor is positive, a fixed word elsewhere;
  bnRelu  centre by the mean, scale by rsqrt (var + ε), by γ, shift by β, then the maximum with the zero splat.
-/
import proofs.«143171_j21096879358070_2_alg».proof.ReferenceIdeal
import Idealize.ShloMosaic.PureOps.Ideal

noncomputable section

namespace Cert.ReferenceIdeal.RefTerm

open Idealize.ShloMosaic
open Cert.ReferenceIdeal

section Stages
variable {B K N : ℕ}

/-- A masked linear layer. -/
def lin (d : DotDims ⟨2, ![B, K]⟩ ⟨2, ![N, K]⟩ ⟨2, ![B, N]⟩)
    (hrow : (⟨1, ![N]⟩ : Shape).BroadcastsInDim ⟨2, ![1, N]⟩ (![1] : Fin 1 → Fin 2))
    (hall : (⟨2, ![1, N]⟩ : Shape).BroadcastsInDim ⟨2, ![B, N]⟩ (![0, 1] : Fin 2 → Fin 2))
    (x : FVec Ideal ⟨2, ![B, K]⟩ .f32) (W : FVec Ideal ⟨2, ![N, K]⟩ .f32) (M : IVec ⟨2, ![N, K]⟩ 32)
    (b : FVec Ideal ⟨1, ![N]⟩ .f32) : FVec Ideal ⟨2, ![B, N]⟩ .f32 :=
  addf (F := Ideal)
    (Host.dotGeneral (F := Ideal) d none x (mulf (F := Ideal) W (sitofp (F := Ideal) .f32 M)))
    (broadcastInDim ⟨2, ![B, N]⟩ ![0, 1] hall (broadcastInDim ⟨2, ![1, N]⟩ ![1] hrow b))

/-- The column means. -/
def mean (hred : (⟨2, ![B, N]⟩ : Shape).ReducesTo [0] ⟨1, ![N]⟩) (h0 : 0 < (⟨0, ![]⟩ : Shape).numel)
    (hs : (⟨0, ![]⟩ : Shape).BroadcastsInDim ⟨1, ![N]⟩ (![] : Fin 0 → Fin 1))
    (y : FVec Ideal ⟨2, ![B, N]⟩ .f32) : FVec Ideal ⟨1, ![N]⟩ .f32 :=
  Host.divf (F := Ideal)
    (Host.reduceAdd (F := Ideal) y (constant (F := Ideal) ⟨0, ![]⟩ .f32 0x00000000#32) hred h0)
    (broadcastInDim ⟨1, ![N]⟩ ![] hs (constant (F := Ideal) ⟨0, ![]⟩ .f32 0x46000000#32))

/-- The divisor of the variance routine: the batch-size word minus the converted integer correction. -/
def varDen (c : IVec ⟨0, ![]⟩ 32) : FVec Ideal ⟨0, ![]⟩ .f32 :=
  subf (F := Ideal) (constant (F := Ideal) ⟨0, ![]⟩ .f32 0x46000000#32) (sitofp (F := Ideal) .f32 c)

/-- The squared deviations the variance routine sums. -/
def varSq (hred : (⟨2, ![B, N]⟩ : Shape).ReducesTo [0] ⟨1, ![N]⟩) (h0 : 0 < (⟨0, ![]⟩ : Shape).numel)
    (hrow : (⟨1, ![N]⟩ : Shape).BroadcastsInDim ⟨2, ![1, N]⟩ (![1] : Fin 1 → Fin 2))
    (hs1 : (⟨0, ![]⟩ : Shape).BroadcastsInDim ⟨2, ![1, N]⟩ (![] : Fin 0 → Fin 2))
    (hall : (⟨2, ![1, N]⟩ : Shape).BroadcastsInDim ⟨2, ![B, N]⟩ (![0, 1] : Fin 2 → Fin 2))
    (y : FVec Ideal ⟨2, ![B, N]⟩ .f32) : FVec Ideal ⟨2, ![B, N]⟩ .f32 :=
  mulf (F := Ideal)
    (subf (F := Ideal) y
      (broadcastInDim ⟨2, ![B, N]⟩ ![0, 1] hall
        (Host.divf (F := Ideal)
          (broadcastInDim ⟨2, ![1, N]⟩ ![1] hrow
            (Host.reduceAdd (F := Ideal) y (constant (F := Ideal) ⟨0, ![]⟩ .f32 0x00000000#32) hred h0))
          (broadcastInDim ⟨2, ![1, N]⟩ ![] hs1 (constant (F := Ideal) ⟨0, ![]⟩ .f32 0x46000000#32)))))
    (subf (F := Ideal) y
      (broadcastInDim ⟨2, ![B, N]⟩ ![0, 1] hall
        (Host.divf (F := Ideal)
          (broadcastInDim ⟨2, ![1, N]⟩ ![1] hrow
            (Host.reduceAdd (F := Ideal) y (constant (F := Ideal) ⟨0, ![]⟩ .f32 0x00000000#32) hred h0))
          (broadcastInDim ⟨2, ![1, N]⟩ ![] hs1 (constant (F := Ideal) ⟨0, ![]⟩ .f32 0x46000000#32)))))

/-- The variance routine's result. -/
def var (hred : (⟨2, ![B, N]⟩ : Shape).ReducesTo [0] ⟨1, ![N]⟩) (h0 : 0 < (⟨0, ![]⟩ : Shape).numel)
    (hrow : (⟨1, ![N]⟩ : Shape).BroadcastsInDim ⟨2, ![1, N]⟩ (![1] : Fin 1 → Fin 2))
    (hs1 : (⟨0, ![]⟩ : Shape).BroadcastsInDim ⟨2, ![1, N]⟩ (![] : Fin 0 → Fin 2))
    (hall : (⟨2, ![1, N]⟩ : Shape).BroadcastsInDim ⟨2, ![B, N]⟩ (![0, 1] : Fin 2 → Fin 2))
    (hs : (⟨0, ![]⟩ : Shape).BroadcastsInDim ⟨1, ![N]⟩ (![] : Fin 0 → Fin 1))
    (y : FVec Ideal ⟨2, ![B, N]⟩ .f32) (c : IVec ⟨0, ![]⟩ 32) : FVec Ideal ⟨1, ![N]⟩ .f32 :=
  select
    (broadcastInDim ⟨1, ![N]⟩ ![] hs
      (cmpf (F := Ideal) .ogt (varDen c) (constant (F := Ideal) ⟨0, ![]⟩ .f32 0x00000000#32)))
    (Host.divf (F := Ideal)
      (Host.reduceAdd (F := Ideal) (varSq hred h0 hrow hs1 hall y)
        (constant (F := Ideal) ⟨0, ![]⟩ .f32 0x00000000#32) hred h0)
      (broadcastInDim ⟨1, ![N]⟩ ![] hs (varDen c)))
    (broadcastInDim ⟨1, ![N]⟩ ![] hs (constant (F := Ideal) ⟨0, ![]⟩ .f32 0x7FC00000#32))

/-- Normalise with a given mean and variance, scale, shift, relu. -/
def bnRelu (hrow : (⟨1, ![N]⟩ : Shape).BroadcastsInDim ⟨2, ![1, N]⟩ (![1] : Fin 1 → Fin 2))
    (hall : (⟨2, ![1, N]⟩ : Shape).BroadcastsInDim ⟨2, ![B, N]⟩ (![0, 1] : Fin 2 → Fin 2))
    (hs : (⟨0, ![]⟩ : Shape).BroadcastsInDim ⟨1, ![N]⟩ (![] : Fin 0 → Fin 1))
    (hsa : (⟨0, ![]⟩ : Shape).BroadcastsInDim ⟨2, ![B, N]⟩ (![] : Fin 0 → Fin 2))
    (y : FVec Ideal ⟨2, ![B, N]⟩ .f32) (m v g be : FVec Ideal ⟨1, ![N]⟩ .f32) : FVec Ideal ⟨2, ![B, N]⟩ .f32 :=
  maximumf (F := Ideal)
    (addf (F := Ideal)
      (mulf (F := Ideal)
        (mulf (F := Ideal)
          (subf (F := Ideal) y (broadcastInDim ⟨2, ![B, N]⟩ ![0, 1] hall (broadcastInDim ⟨2, ![1, N]⟩ ![1] hrow m)))
          (broadcastInDim ⟨2, ![B, N]⟩ ![0, 1] hall
            (broadcastInDim ⟨2, ![1, N]⟩ ![1] hrow
              (Host.rsqrt (F := Ideal)
                (addf (F := Ideal) v
                  (broadcastInDim ⟨1, ![N]⟩ ![] hs (constant (F := Ideal) ⟨0, ![]⟩ .f32 0x3727C5AC#32)))))))
        (broadcastInDim ⟨2, ![B, N]⟩ ![0, 1] hall (broadcastInDim ⟨2, ![1, N]⟩ ![1] hrow g)))
      (broadcastInDim ⟨2, ![B, N]⟩ ![0, 1] hall (broadcastInDim ⟨2, ![1, N]⟩ ![1] hrow be)))
    (broadcastInDim ⟨2, ![B, N]⟩ ![] hsa (constant (F := Ideal) ⟨0, ![]⟩ .f32 0x00000000#32))

/-- A hidden layer: normalise the linear layer's output with its own mean and variance (the variance routine called
    with the integer correction 0), then relu. -/
def hidden (hred : (⟨2, ![B, N]⟩ : Shape).ReducesTo [0] ⟨1, ![N]⟩) (h0 : 0 < (⟨0, ![]⟩ : Shape).numel)
    (hrow : (⟨1, ![N]⟩ : Shape).BroadcastsInDim ⟨2, ![1, N]⟩ (![1] : Fin 1 → Fin 2))
    (hs1 : (⟨0, ![]⟩ : Shape).BroadcastsInDim ⟨2, ![1, N]⟩ (![] : Fin 0 → Fin 2))
    (hall : (⟨2, ![1, N]⟩ : Shape).BroadcastsInDim ⟨2, ![B, N]⟩ (![0, 1] : Fin 2 → Fin 2))
    (hs : (⟨0, ![]⟩ : Shape).BroadcastsInDim ⟨1, ![N]⟩ (![] : Fin 0 → Fin 1))
    (hsa : (⟨0, ![]⟩ : Shape).BroadcastsInDim ⟨2, ![B, N]⟩ (![] : Fin 0 → Fin 2))
    (y : FVec Ideal ⟨2, ![B, N]⟩ .f32) (g be : FVec Ideal ⟨1, ![N]⟩ .f32) : FVec Ideal ⟨2, ![B, N]⟩ .f32 :=
  bnRelu hrow hall hs hsa y (mean hred h0 hs y)
    (var hred h0 hrow hs1 hall hs y (constantI ⟨0, ![]⟩ 32 0#32)) g be

end Stages

variable [Facts]
open Facts₀ Facts

/-- The first hidden layer's output, [8192, 1024]. -/
def h1 (a0 : (⟨S8192x256, .f32⟩ : BufTy).Contents (Elt Ideal)) (a1 : (⟨S1024x256, .f32⟩ : BufTy).Contents (Elt Ideal))
    (a2 : (⟨S1024, .f32⟩ : BufTy).Contents (Elt Ideal)) (a3 : (⟨S1024x256, .i32⟩ : BufTy).Contents (Elt Ideal))
    (a4 a5 : (⟨S1024, .f32⟩ : BufTy).Contents (Elt Ideal)) : (⟨S8192x1024, .f32⟩ : BufTy).Contents (Elt Ideal) :=
  hidden (B := 8192) (N := 1024) reducesTo_S8192x1024_S1024_d0 h_S_ bcast_S1024_S1x1024_1 bcast_S_S1x1024
    bcast_S1x1024_S8192x1024_0_1 bcast_S_S1024 bcast_S_S8192x1024
    (lin (B := 8192) (K := 256) (N := 1024) dot_S8192x256_S1024x256_S8192x1024_1_1_0_0_n_n bcast_S1024_S1x1024_1
      bcast_S1x1024_S8192x1024_0_1 a0 a1 a3 a2)
    a4 a5

/-- The second hidden layer's output, [8192, 2048]. -/
def h2 (h : (⟨S8192x1024, .f32⟩ : BufTy).Contents (Elt Ideal)) (a6 : (⟨S2048x1024, .f32⟩ : BufTy).Contents (Elt Ideal))
    (a7 : (⟨S2048, .f32⟩ : BufTy).Contents (Elt Ideal)) (a8 : (⟨S2048x1024, .i32⟩ : BufTy).Contents (Elt Ideal))
    (a9 a10 : (⟨S2048, .f32⟩ : BufTy).Contents (Elt Ideal)) : (⟨S8192x2048, .f32⟩ : BufTy).Contents (Elt Ideal) :=
  hidden (B := 8192) (N := 2048) reducesTo_S8192x2048_S2048_d0 h_S_ bcast_S2048_S1x2048_1 bcast_S_S1x2048
    bcast_S1x2048_S8192x2048_0_1 bcast_S_S2048 bcast_S_S8192x2048
    (lin (B := 8192) (K := 1024) (N := 2048) dot_S8192x1024_S2048x1024_S8192x2048_1_1_0_0_n_n bcast_S2048_S1x2048_1
      bcast_S1x2048_S8192x2048_0_1 h a6 a8 a7)
    a9 a10

/-- The reference's result as a function of its fourteen arguments, in argument order. -/
def out (a0 : (⟨S8192x256, .f32⟩ : BufTy).Contents (Elt Ideal)) (a1 : (⟨S1024x256, .f32⟩ : BufTy).Contents (Elt Ideal))
    (a2 : (⟨S1024, .f32⟩ : BufTy).Contents (Elt Ideal)) (a3 : (⟨S1024x256, .i32⟩ : BufTy).Contents (Elt Ideal))
    (a4 a5 : (⟨S1024, .f32⟩ : BufTy).Contents (Elt Ideal)) (a6 : (⟨S2048x1024, .f32⟩ : BufTy).Contents (Elt Ideal))
    (a7 : (⟨S2048, .f32⟩ : BufTy).Contents (Elt Ideal)) (a8 : (⟨S2048x1024, .i32⟩ : BufTy).Contents (Elt Ideal))
    (a9 a10 : (⟨S2048, .f32⟩ : BufTy).Contents (Elt Ideal)) (a11 : (⟨S4096x2048, .f32⟩ : BufTy).Contents (Elt Ideal))
    (a12 : (⟨S4096, .f32⟩ : BufTy).Contents (Elt Ideal)) (a13 : (⟨S4096x2048, .i32⟩ : BufTy).Contents (Elt Ideal)) :
    (⟨S8192x4096, .f32⟩ : BufTy).Contents (Elt Ideal) :=
  lin (B := 8192) (K := 2048) (N := 4096) dot_S8192x2048_S4096x2048_S8192x4096_1_1_0_0_n_n bcast_S4096_S1x4096_1
    bcast_S1x4096_S8192x4096_0_1 (h2 (h1 a0 a1 a2 a3 a4 a5) a6 a7 a8 a9 a10) a11 a13 a12

end Cert.ReferenceIdeal.RefTerm

end
-- ==== Proof.RefOut.lean ====
/-
  The reference's run, read back at its buffers. The fold of the reference's 112 operations over any contents leaves,
  in the result buffer, the reference's result term of the fourteen argument buffers' contents, and leaves every
  argument buffer as it was: each operation rewrites only its own result buffer, the operands are read where the
  earlier operations left them, and the typed references of the inlined calls move contents along equations that
  are identities at these literal buffers. All of it is computation; the array functions themselves are kept
  folded, since the equations never look inside them.
-/
import proofs.«143171_j21096879358070_2_alg».proof.Proof.RefRun
import proofs.«143171_j21096879358070_2_alg».proof.Proof.RefTerm

noncomputable section

namespace Cert.ReferenceIdeal.RefOut

open Cert.ReferenceIdeal Cert.ReferenceIdeal.Gen Idealize.ShloMosaic Idealize.ShloMosaic.TcCoe Idealize.SL.Sem Idealize.ShloMosaic.StableHlo

attribute [local irreducible] Host.reduceAdd Host.divf Host.rsqrt broadcastInDim mulf addf subf maximumf sitofp constant constantI cmpf select in
set_option maxRecDepth 65536 in
set_option maxHeartbeats 40000000 in
/-- The fold at the result buffer is the reference's result term of the arguments' contents. -/
theorem out_eq (V : Valuation τ sig (Elt Ideal)) :
    after (RefRun.ops (F := Ideal)) V (main_v57 : DevRef τ sig)
      = RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 0's buffer: it reads back unchanged. -/
theorem arg0_eq (V : Valuation τ sig (Elt Ideal)) :
    after (RefRun.ops (F := Ideal)) V (main_arg0 : DevRef τ sig) = V (main_arg0 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 1's buffer: it reads back unchanged. -/
theorem arg1_eq (V : Valuation τ sig (Elt Ideal)) :
    after (RefRun.ops (F := Ideal)) V (main_arg1 : DevRef τ sig) = V (main_arg1 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 2's buffer: it reads back unchanged. -/
theorem arg2_eq (V : Valuation τ sig (Elt Ideal)) :
    after (RefRun.ops (F := Ideal)) V (main_arg2 : DevRef τ sig) = V (main_arg2 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 3's buffer: it reads back unchanged. -/
theorem arg3_eq (V : Valuation τ sig (Elt Ideal)) :
    after (RefRun.ops (F := Ideal)) V (main_arg3 : DevRef τ sig) = V (main_arg3 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 4's buffer: it reads back unchanged. -/
theorem arg4_eq (V : Valuation τ sig (Elt Ideal)) :
    after (RefRun.ops (F := Ideal)) V (main_arg4 : DevRef τ sig) = V (main_arg4 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 5's buffer: it reads back unchanged. -/
theorem arg5_eq (V : Valuation τ sig (Elt Ideal)) :
    after (RefRun.ops (F := Ideal)) V (main_arg5 : DevRef τ sig) = V (main_arg5 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 6's buffer: it reads back unchanged. -/
theorem arg6_eq (V : Valuation τ sig (Elt Ideal)) :
    after (RefRun.ops (F := Ideal)) V (main_arg6 : DevRef τ sig) = V (main_arg6 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 7's buffer: it reads back unchanged. -/
theorem arg7_eq (V : Valuation τ sig (Elt Ideal)) :
    after (RefRun.ops (F := Ideal)) V (main_arg7 : DevRef τ sig) = V (main_arg7 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 8's buffer: it reads back unchanged. -/
theorem arg8_eq (V : Valuation τ sig (Elt Ideal)) :
    after (RefRun.ops (F := Ideal)) V (main_arg8 : DevRef τ sig) = V (main_arg8 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 9's buffer: it reads back unchanged. -/
theorem arg9_eq (V : Valuation τ sig (Elt Ideal)) :
    after (RefRun.ops (F := Ideal)) V (main_arg9 : DevRef τ sig) = V (main_arg9 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 10's buffer: it reads back unchanged. -/
theorem arg10_eq (V : Valuation τ sig (Elt Ideal)) :
    after (RefRun.ops (F := Ideal)) V (main_arg10 : DevRef τ sig) = V (main_arg10 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 11's buffer: it reads back unchanged. -/
theorem arg11_eq (V : Valuation τ sig (Elt Ideal)) :
    after (RefRun.ops (F := Ideal)) V (main_arg11 : DevRef τ sig) = V (main_arg11 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 12's buffer: it reads back unchanged. -/
theorem arg12_eq (V : Valuation τ sig (Elt Ideal)) :
    after (RefRun.ops (F := Ideal)) V (main_arg12 : DevRef τ sig) = V (main_arg12 : DevRef τ sig) := by
  simp only [after_cons, after_nil]
  rfl

attribute [local irreducible] Host.reduceAdd Host.divf Host.rsqrt broadcastInDim mulf addf subf maximumf sitofp constant constantI cmpf select in
set_option maxRecDepth 65536 in
set_option maxHeartbeats 4000000 in
/-- No operation writes argument 13's buffer: it reads back unchanged. -/
theorem arg13_eq (V : Valuation τ sig (Elt Ideal)) :
    after (RefRun.ops (F := Ideal)) V (main_arg13 : DevRef τ sig) = V (main_arg13 : DevRef τ sig) := by
  simp only [after_cons, after_nil]
  rfl

end Cert.ReferenceIdeal.RefOut

end
-- ==== Proof.LibBroadcastInDim.lean ====
/-
  `broadcast_in_dim` read at an index, for the layouts a host program meets when it spreads a per-row or per-column
  quantity over a matrix: a scalar splat to any shape; a vector `[a]` laid out as the column `[a, 1]` or `[b]` as the
  row `[1, b]`; the column and the row spread to `[a, b]`; a vector `[c]` laid out as `[1, 1, c]` and spread to
  `[a, b, c]`. General in the extents and in the element type: each result entry reads the one operand entry that
  shares its coordinates on the axes the operand keeps.
-/
import Idealize.ShloMosaic.Lib.Pipeline.Value
import Idealize.ShloMosaic.Lib.ValueIdx

namespace Idealize.ShloMosaic.ValueIdx

variable {α : Type}

/-- A scalar splat reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector `[a]` as the column `[a, 1]`: entry `(i, u)` is the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column `[a, 1]` spread to `[a, b]`: entry `(p, c)` is the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[b]` as the row `[1, b]`: entry `(u, c)` is the vector's entry `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x _ (ix1 c) fun ax => ?_
  match ax with
  | ⟨0, _⟩ =>
    show c.val = if b = 1 then 0 else c.val
    split
    · have := c.isLt; omega
    · rfl

/-- A row `[1, b]` spread to `[a, b]`: entry `(p, c)` is the row's entry `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x _ (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A vector `[c]` as `[1, 1, c]`: entry `(u, v, k)` is the vector's entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ ![2] h x (ix3 u v k) = x (ix1 k) := by
  refine broadcastInDim_apply _ h x _ (ix1 k) fun ax => ?_
  match ax with
  | ⟨0, _⟩ =>
    show k.val = if c = 1 then 0 else k.val
    split
    · have := k.isLt; omega
    · rfl

/-- `[1, 1, c]` spread to `[a, b, c]`: entry `(p, q, k)` is the operand's entry `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (k : Fin c) :
    broadcastInDim ⟨3, ![a, b, c]⟩ ![0, 1, 2] h x (ix3 p q k) = x (ix3 (0 : Fin 1) (0 : Fin 1) k) := by
  refine broadcastInDim_apply _ h x _ (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Idealize.ShloMosaic.ValueIdx
-- ==== Proof.LibTransposedDot.lean ====
/-
  A matrix product with the right operand transposed, read at an entry. For the dimension numbers of an [M, K] by
  [N, K] product (no batch axis, both operands contracted on their last axis) the entry (p, q) of the product is
  ∑ₖ l(p, k) · r(q, k) over k : Fin K — for the host's dot_general at the ideal values. General in the three extents
  and in the operands' formats; a printed record of these dimension numbers is DotDims.transposedRhs M K N up to the
  proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem transposedRhs_lhs_row {M K N : ℕ} (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row is the output's column, whatever the contraction index. -/
theorem transposedRhs_rhs_row {M K N : ℕ} (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (p, q) and contraction coordinate k is (p, k). -/
theorem transposedRhs_lhsIdx {M K N : ℕ} (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => exact transposedRhs_lhs_row (ix2 p q) _
  | ⟨1, _⟩ => exact ((DotDims.transposedRhs M K N).lhsIdx_val_of_single (cl := (1 : Fin 2)) rfl (ix2 p q) _).trans hk

/-- The right operand's index at output (p, q) and contraction coordinate k is (q, k). -/
theorem transposedRhs_rhsIdx {M K N : ℕ} (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => exact transposedRhs_rhs_row (ix2 p q) _
  | ⟨1, _⟩ => exact ((DotDims.transposedRhs M K N).rhsIdx_val_of_single (cr := (1 : Fin 2)) rfl (ix2 p q) _).trans hk

/-- The product's sum over the contraction index, re-indexed by the contracted coordinate. -/
theorem sum_transposedRhs {M K N : ℕ} (l : (⟨2, ![M, K]⟩ : Shape).Idx → EReal) (r : (⟨2, ![N, K]⟩ : Shape).Idx → EReal)
    (p : Fin M) (q : Fin N) :
    ∑ k : (DotDims.transposedRhs M K N).contr.Idx,
        l ((DotDims.transposedRhs M K N).lhsIdx (ix2 p q) k) * r ((DotDims.transposedRhs M K N).rhsIdx (ix2 p q) k)
      = ∑ k : Fin K, l (ix2 p k) * r (ix2 q k) := by
  rw [← Equiv.sum_comp (contrEquiv1 (DotDims.transposedRhs M K N) K rfl rfl).symm]
  exact Finset.sum_congr rfl fun k _ => by rw [transposedRhs_lhsIdx, transposedRhs_rhsIdx]

/-- The host's dot_general of these dimension numbers, at entry (p, q). -/
theorem dotGeneral_transposedRhs_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  exact (Ideal.dotGeneral_apply _ prec sched lhs rhs (ix2 p q)).trans (sum_transposedRhs lhs rhs p q)

end Idealize.ShloMosaic.ValueIdx
-- ==== Proof.RefValue.lean ====
/-
  The reference's result term equals the network, entry by entry.

  Each stage of the reference's term is read at an index with coordinates: the linear layer's entry (i, n) is the
  network's linear layer there; the column mean at n is the column's sum (from the zero word, which is 0) over the
  batch-size word; the variance routine's result at n is the mean squared deviation over the same word, because its
  divisor "batch size minus the converted integer 0" is the batch-size word itself and is positive, so its select
  returns the quotient; the normalise-and-relu stage's entry is the network's. The stages are generic in the extents,
  so the two hidden layers are one lemma.
-/
import proofs.«143171_j21096879358070_2_alg».proof.Proof.RefTerm
import proofs.«143171_j21096879358070_2_alg».proof.Proof.Mlp
import proofs.«143171_j21096879358070_2_alg».proof.Proof.LibBroadcastInDim
import proofs.«143171_j21096879358070_2_alg».proof.Proof.LibTransposedDot
import Idealize.ShloMosaic.PureOps.Ideal.Laws

noncomputable section

namespace Cert.ReferenceIdeal.RefValue

open Idealize.ShloMosaic Idealize.ShloMosaic.ValueIdx
open Cert.ReferenceIdeal

/-! ## The words -/

/-- The batch-size word denotes 8192. -/
theorem cB_eq : Cert.Mlp.cB = ((8192 : ℝ) : EReal) := by
  simp [Cert.Mlp.cB, Ideal.ofBits, Ideal.ieee, -EReal.coe_mul]; norm_num

/-- It is positive. -/
theorem cB_pos : (0 : EReal) < Cert.Mlp.cB := by
  rw [cB_eq]; exact_mod_cast (by norm_num : (0 : ℝ) < 8192)

/-- The integer 0 converts to the float 0. -/
theorem sitofp_zero : FloatOps.sitofp (F := Ideal) .f32 (0#32 : BitVec 32) = (0 : EReal) := by
  show (((0#32 : BitVec 32).toInt : ℝ) : EReal) = 0
  simp

/-- The variance routine's divisor, called with the integer 0, is the batch-size word. -/
theorem varDen_zero (j : (⟨0, ![]⟩ : Shape).Idx) : RefTerm.varDen (constantI ⟨0, ![]⟩ 32 0#32) j = Cert.Mlp.cB := by
  show Cert.Mlp.cB - FloatOps.sitofp (F := Ideal) .f32 (0#32 : BitVec 32) = Cert.Mlp.cB
  rw [sitofp_zero, sub_zero]

/-- The divisor is above zero, so the comparison's bit is set. -/
theorem cmp_cB : Ideal.cmp .ogt Cert.Mlp.cB 0 = 1#1 := by
  unfold Ideal.cmp
  simp [cB_pos]

/-! ## A column sum -/

variable {B K N : ℕ}

/-- The host's sum over axis 0 of a [B, N] array, at column n: the initial value plus the column's sum. -/
theorem hostReduceAdd_col (h' : (⟨2, ![B, N]⟩ : Shape).ReducesTo [0] ⟨1, ![N]⟩)
    (x : (⟨2, ![B, N]⟩ : Shape).Idx → EReal) (init : EReal) (n : Fin N) :
    Ideal.hostReduceAdd h' x init (ix1 n) = init + ∑ i : Fin B, x (ix2 i n) := by
  have h : (⟨2, ![B, N]⟩ : Shape).Reduces [0] ⟨1, ![N]⟩ := ⟨h'.1, Nat.one_pos, h'.2⟩
  rw [Ideal.hostReduceAdd_single h' h]
  refine congrArg (init + ·) (Finset.sum_congr rfl fun k _ => congrArg x ?_)
  funext c; apply Fin.ext
  match c with
  | ⟨0, _⟩ => rfl
  | ⟨1, _⟩ => rfl

/-- The reference's column sum from the zero word. -/
theorem reduceAdd_zero_apply (hred : (⟨2, ![B, N]⟩ : Shape).ReducesTo [0] ⟨1, ![N]⟩) (h0 : 0 < (⟨0, ![]⟩ : Shape).numel)
    (y : FVec Ideal ⟨2, ![B, N]⟩ .f32) (n : Fin N) :
    Host.reduceAdd (F := Ideal) y (constant (F := Ideal) ⟨0, ![]⟩ .f32 0x00000000#32) hred h0 (ix1 n)
      = ∑ i : Fin B, y (ix2 i n) := by
  show Ideal.hostReduceAdd hred y (Ideal.ofBits .f32 0x00000000#32) (ix1 n) = _
  rw [hostReduceAdd_col, Ideal.ofBits_zero_f32, zero_add]

/-! ## The elementwise host operations at an index -/

/-- The host's quotient at an index is the quotient of the elements. -/
theorem hostDivf_apply {s : Shape} (a b : FVec Ideal s .f32) (j : s.Idx) :
    Host.divf (F := Ideal) a b j = Ideal.div (a j) (b j) := rfl

/-- The host's reciprocal square root at an index is that of the element. -/
theorem hostRsqrt_apply {s : Shape} (a : FVec Ideal s .f32) (j : s.Idx) :
    Host.rsqrt (F := Ideal) a j = Ideal.rsqrt (a j) := rfl

/-! ## The stages -/

/-- The reference's linear layer at entry (i, n) is the network's. -/
theorem lin_apply (d : DotDims ⟨2, ![B, K]⟩ ⟨2, ![N, K]⟩ ⟨2, ![B, N]⟩) (hd : d = DotDims.transposedRhs B K N)
    (hrow : (⟨1, ![N]⟩ : Shape).BroadcastsInDim ⟨2, ![1, N]⟩ (![1] : Fin 1 → Fin 2))
    (hall : (⟨2, ![1, N]⟩ : Shape).BroadcastsInDim ⟨2, ![B, N]⟩ (![0, 1] : Fin 2 → Fin 2))
    (x : FVec Ideal ⟨2, ![B, K]⟩ .f32) (W : FVec Ideal ⟨2, ![N, K]⟩ .f32) (M : IVec ⟨2, ![N, K]⟩ 32)
    (b : FVec Ideal ⟨1, ![N]⟩ .f32) (i : Fin B) (n : Fin N) :
    RefTerm.lin d hrow hall x W M b (ix2 i n)
      = Cert.Mlp.lin (fun i k => x (ix2 i k)) (Cert.Mlp.masked W M) (fun n => b (ix1 n)) i n := by
  unfold RefTerm.lin Cert.Mlp.lin Cert.Mlp.masked Host.dotGeneral
  rw [addf_apply, dotGeneral_transposedRhs_apply d hd, broadcastInDim_1b_ab_apply, broadcastInDim_b_1b_apply]
  rfl

/-- The reference's column mean at n is the network's. -/
theorem mean_apply (hred : (⟨2, ![B, N]⟩ : Shape).ReducesTo [0] ⟨1, ![N]⟩) (h0 : 0 < (⟨0, ![]⟩ : Shape).numel)
    (hs : (⟨0, ![]⟩ : Shape).BroadcastsInDim ⟨1, ![N]⟩ (![] : Fin 0 → Fin 1))
    (y : FVec Ideal ⟨2, ![B, N]⟩ .f32) (n : Fin N) :
    RefTerm.mean hred h0 hs y (ix1 n) = Cert.Mlp.colMean (fun i n => y (ix2 i n)) n := by
  unfold RefTerm.mean Cert.Mlp.colMean
  rw [hostDivf_apply, reduceAdd_zero_apply, broadcastInDim_scalar_apply, constant_apply]

/-- The variance routine's squared deviation at entry (i, n): from the network's column mean. -/
theorem varSq_apply (hred : (⟨2, ![B, N]⟩ : Shape).ReducesTo [0] ⟨1, ![N]⟩) (h0 : 0 < (⟨0, ![]⟩ : Shape).numel)
    (hrow : (⟨1, ![N]⟩ : Shape).BroadcastsInDim ⟨2, ![1, N]⟩ (![1] : Fin 1 → Fin 2))
    (hs1 : (⟨0, ![]⟩ : Shape).BroadcastsInDim ⟨2, ![1, N]⟩ (![] : Fin 0 → Fin 2))
    (hall : (⟨2, ![1, N]⟩ : Shape).BroadcastsInDim ⟨2, ![B, N]⟩ (![0, 1] : Fin 2 → Fin 2))
    (y : FVec Ideal ⟨2, ![B, N]⟩ .f32) (i : Fin B) (n : Fin N) :
    RefTerm.varSq hred h0 hrow hs1 hall y (ix2 i n)
      = (y (ix2 i n) - Cert.Mlp.colMean (fun i n => y (ix2 i n)) n)
        * (y (ix2 i n) - Cert.Mlp.colMean (fun i n => y (ix2 i n)) n) := by
  unfold RefTerm.varSq Cert.Mlp.colMean
  rw [mulf_apply, subf_apply, broadcastInDim_1b_ab_apply, hostDivf_apply, broadcastInDim_b_1b_apply,
    reduceAdd_zero_apply, broadcastInDim_scalar_apply, constant_apply]

/-- The variance routine's result at n, called with the integer 0, is the network's column variance: its divisor is
    the batch-size word, which is positive, so the select returns the quotient. -/
theorem var_apply (hred : (⟨2, ![B, N]⟩ : Shape).ReducesTo [0] ⟨1, ![N]⟩) (h0 : 0 < (⟨0, ![]⟩ : Shape).numel)
    (hrow : (⟨1, ![N]⟩ : Shape).BroadcastsInDim ⟨2, ![1, N]⟩ (![1] : Fin 1 → Fin 2))
    (hs1 : (⟨0, ![]⟩ : Shape).BroadcastsInDim ⟨2, ![1, N]⟩ (![] : Fin 0 → Fin 2))
    (hall : (⟨2, ![1, N]⟩ : Shape).BroadcastsInDim ⟨2, ![B, N]⟩ (![0, 1] : Fin 2 → Fin 2))
    (hs : (⟨0, ![]⟩ : Shape).BroadcastsInDim ⟨1, ![N]⟩ (![] : Fin 0 → Fin 1))
    (y : FVec Ideal ⟨2, ![B, N]⟩ .f32) (n : Fin N) :
    RefTerm.var hred h0 hrow hs1 hall hs y (constantI ⟨0, ![]⟩ 32 0#32) (ix1 n)
      = Cert.Mlp.colVar (fun i n => y (ix2 i n)) n := by
  unfold RefTerm.var Cert.Mlp.colVar
  rw [select_apply, broadcastInDim_scalar_apply, cmpf_apply, varDen_zero, constant_apply, Ideal.ofBits_zero_f32,
    Ideal.cmpf_def, cmp_cB, select_one, hostDivf_apply, reduceAdd_zero_apply, broadcastInDim_scalar_apply, varDen_zero]
  simp only [varSq_apply]

/-- The normalise-and-relu stage at entry (i, n). -/
theorem bnRelu_apply (hrow : (⟨1, ![N]⟩ : Shape).BroadcastsInDim ⟨2, ![1, N]⟩ (![1] : Fin 1 → Fin 2))
    (hall : (⟨2, ![1, N]⟩ : Shape).BroadcastsInDim ⟨2, ![B, N]⟩ (![0, 1] : Fin 2 → Fin 2))
    (hs : (⟨0, ![]⟩ : Shape).BroadcastsInDim ⟨1, ![N]⟩ (![] : Fin 0 → Fin 1))
    (hsa : (⟨0, ![]⟩ : Shape).BroadcastsInDim ⟨2, ![B, N]⟩ (![] : Fin 0 → Fin 2))
    (y : FVec Ideal ⟨2, ![B, N]⟩ .f32) (m v g be : FVec Ideal ⟨1, ![N]⟩ .f32) (i : Fin B) (n : Fin N) :
    RefTerm.bnRelu hrow hall hs hsa y m v g be (ix2 i n)
      = max ((y (ix2 i n) - m (ix1 n)) * Ideal.rsqrt (v (ix1 n) + Cert.Mlp.eps) * g (ix1 n) + be (ix1 n))
          Cert.Mlp.floor0 := by
  unfold RefTerm.bnRelu
  simp only [maximumf_apply, addf_apply, mulf_apply, subf_apply]
  rw [broadcastInDim_1b_ab_apply, broadcastInDim_1b_ab_apply, broadcastInDim_1b_ab_apply, broadcastInDim_1b_ab_apply,
    broadcastInDim_b_1b_apply, broadcastInDim_b_1b_apply, broadcastInDim_b_1b_apply, broadcastInDim_b_1b_apply,
    hostRsqrt_apply, addf_apply, broadcastInDim_scalar_apply, broadcastInDim_scalar_apply, constant_apply, constant_apply]

/-- A hidden layer's normalise-and-relu at entry (i, n) is the network's. -/
theorem hidden_apply (hred : (⟨2, ![B, N]⟩ : Shape).ReducesTo [0] ⟨1, ![N]⟩) (h0 : 0 < (⟨0, ![]⟩ : Shape).numel)
    (hrow : (⟨1, ![N]⟩ : Shape).BroadcastsInDim ⟨2, ![1, N]⟩ (![1] : Fin 1 → Fin 2))
    (hs1 : (⟨0, ![]⟩ : Shape).BroadcastsInDim ⟨2, ![1, N]⟩ (![] : Fin 0 → Fin 2))
    (hall : (⟨2, ![1, N]⟩ : Shape).BroadcastsInDim ⟨2, ![B, N]⟩ (![0, 1] : Fin 2 → Fin 2))
    (hs : (⟨0, ![]⟩ : Shape).BroadcastsInDim ⟨1, ![N]⟩ (![] : Fin 0 → Fin 1))
    (hsa : (⟨0, ![]⟩ : Shape).BroadcastsInDim ⟨2, ![B, N]⟩ (![] : Fin 0 → Fin 2))
    (y : FVec Ideal ⟨2, ![B, N]⟩ .f32) (g be : FVec Ideal ⟨1, ![N]⟩ .f32) (i : Fin B) (n : Fin N) :
    RefTerm.hidden hred h0 hrow hs1 hall hs hsa y g be (ix2 i n)
      = Cert.Mlp.bnRelu (fun i n => y (ix2 i n)) (fun n => g (ix1 n)) (fun n => be (ix1 n)) i n := by
  unfold RefTerm.hidden Cert.Mlp.bnRelu
  rw [bnRelu_apply, mean_apply, var_apply]

/-- A hidden layer of the reference, linear stage included, is the network's hidden layer. -/
theorem hidden_lin (d : DotDims ⟨2, ![B, K]⟩ ⟨2, ![N, K]⟩ ⟨2, ![B, N]⟩) (hd : d = DotDims.transposedRhs B K N)
    (hred : (⟨2, ![B, N]⟩ : Shape).ReducesTo [0] ⟨1, ![N]⟩) (h0 : 0 < (⟨0, ![]⟩ : Shape).numel)
    (hrow : (⟨1, ![N]⟩ : Shape).BroadcastsInDim ⟨2, ![1, N]⟩ (![1] : Fin 1 → Fin 2))
    (hs1 : (⟨0, ![]⟩ : Shape).BroadcastsInDim ⟨2, ![1, N]⟩ (![] : Fin 0 → Fin 2))
    (hall : (⟨2, ![1, N]⟩ : Shape).BroadcastsInDim ⟨2, ![B, N]⟩ (![0, 1] : Fin 2 → Fin 2))
    (hs : (⟨0, ![]⟩ : Shape).BroadcastsInDim ⟨1, ![N]⟩ (![] : Fin 0 → Fin 1))
    (hsa : (⟨0, ![]⟩ : Shape).BroadcastsInDim ⟨2, ![B, N]⟩ (![] : Fin 0 → Fin 2))
    (x : FVec Ideal ⟨2, ![B, K]⟩ .f32) (W : FVec Ideal ⟨2, ![N, K]⟩ .f32) (M : IVec ⟨2, ![N, K]⟩ 32)
    (b g be : FVec Ideal ⟨1, ![N]⟩ .f32) :
    (fun i n => RefTerm.hidden hred h0 hrow hs1 hall hs hsa (RefTerm.lin d hrow hall x W M b) g be (ix2 i n))
      = Cert.Mlp.hidden (fun i k => x (ix2 i k)) (Cert.Mlp.masked W M) (fun n => b (ix1 n)) (fun n => g (ix1 n))
          (fun n => be (ix1 n)) := by
  funext i n
  rw [hidden_apply]
  unfold Cert.Mlp.hidden
  exact congrArg (fun h => Cert.Mlp.bnRelu h (fun n => g (ix1 n)) (fun n => be (ix1 n)) i n)
    (funext fun i => funext fun n => lin_apply d hd hrow hall x W M b i n)

/-! ## The whole network -/

section Whole
variable [Facts]
open Facts₀ Facts

/-- The reference's result is the network of its fourteen arguments. -/
theorem out_eq_net (a0 : (⟨S8192x256, .f32⟩ : BufTy).Contents (Elt Ideal)) (a1 : (⟨S1024x256, .f32⟩ : BufTy).Contents (Elt Ideal))
    (a2 : (⟨S1024, .f32⟩ : BufTy).Contents (Elt Ideal)) (a3 : (⟨S1024x256, .i32⟩ : BufTy).Contents (Elt Ideal))
    (a4 a5 : (⟨S1024, .f32⟩ : BufTy).Contents (Elt Ideal)) (a6 : (⟨S2048x1024, .f32⟩ : BufTy).Contents (Elt Ideal))
    (a7 : (⟨S2048, .f32⟩ : BufTy).Contents (Elt Ideal)) (a8 : (⟨S2048x1024, .i32⟩ : BufTy).Contents (Elt Ideal))
    (a9 a10 : (⟨S2048, .f32⟩ : BufTy).Contents (Elt Ideal)) (a11 : (⟨S4096x2048, .f32⟩ : BufTy).Contents (Elt Ideal))
    (a12 : (⟨S4096, .f32⟩ : BufTy).Contents (Elt Ideal)) (a13 : (⟨S4096x2048, .i32⟩ : BufTy).Contents (Elt Ideal)) :
    RefTerm.out a0 a1 a2 a3 a4 a5 a6 a7 a8 a9 a10 a11 a12 a13
      = Cert.Mlp.net a0 a1 a2 a3 a4 a5 a6 a7 a8 a9 a10 a11 a12 a13 := by
  funext j
  have e1 : (fun i n => RefTerm.h1 a0 a1 a2 a3 a4 a5 (ix2 i n))
      = Cert.Mlp.hidden (fun i k => a0 (ix2 i k)) (Cert.Mlp.masked a1 a3) (fun n => a2 (ix1 n)) (fun n => a4 (ix1 n))
          (fun n => a5 (ix1 n)) :=
    hidden_lin (B := 8192) (K := 256) (N := 1024) dot_S8192x256_S1024x256_S8192x1024_1_1_0_0_n_n rfl
      reducesTo_S8192x1024_S1024_d0 h_S_ bcast_S1024_S1x1024_1 bcast_S_S1x1024 bcast_S1x1024_S8192x1024_0_1 bcast_S_S1024
      bcast_S_S8192x1024 a0 a1 a3 a2 a4 a5
  have e2 : (fun i n => RefTerm.h2 (RefTerm.h1 a0 a1 a2 a3 a4 a5) a6 a7 a8 a9 a10 (ix2 i n))
      = Cert.Mlp.hidden (fun i k => RefTerm.h1 a0 a1 a2 a3 a4 a5 (ix2 i k)) (Cert.Mlp.masked a6 a8) (fun n => a7 (ix1 n))
          (fun n => a9 (ix1 n)) (fun n => a10 (ix1 n)) :=
    hidden_lin (B := 8192) (K := 1024) (N := 2048) dot_S8192x1024_S2048x1024_S8192x2048_1_1_0_0_n_n rfl
      reducesTo_S8192x2048_S2048_d0 h_S_ bcast_S2048_S1x2048_1 bcast_S_S1x2048 bcast_S1x2048_S8192x2048_0_1 bcast_S_S2048
      bcast_S_S8192x2048 (RefTerm.h1 a0 a1 a2 a3 a4 a5) a6 a8 a7 a9 a10
  have e3 := lin_apply (B := 8192) (K := 2048) (N := 4096) dot_S8192x2048_S4096x2048_S8192x4096_1_1_0_0_n_n rfl
    bcast_S4096_S1x4096_1 bcast_S1x4096_S8192x4096_0_1 (RefTerm.h2 (RefTerm.h1 a0 a1 a2 a3 a4 a5) a6 a7 a8 a9 a10) a11 a13 a12
    (j 0) (j 1)
  rw [e2, e1] at e3
  have ej : RefTerm.out a0 a1 a2 a3 a4 a5 a6 a7 a8 a9 a10 a11 a12 a13 j
      = RefTerm.out a0 a1 a2 a3 a4 a5 a6 a7 a8 a9 a10 a11 a12 a13 (ix2 (j 0) (j 1)) :=
    congrArg _ (eq_ix2 j)
  rw [ej]
  exact e3

end Whole

end Cert.ReferenceIdeal.RefValue

end
-- ==== Proof.lean ====
/-
  The certificate: a three-layer masked network — linear, batch normalisation and relu, twice, then linear — computed by
  three kernel regions is, on the extended reals, the network its reference computes with whole-array operations.

  Both programs are read as values. The kernel's run ends with its result buffer at what the third region's write-backs
  leave; each region's output array is one whole-array function of the arrays it finds (a block of columns holds the
  whole batch, so a column's mean and variance are the same in the block as in the array), and the host stretches
  between the regions leave the transposed masked weights in the arrays the regions read. The reference's run ends
  with its result buffer at the fold of its operations, and that fold, read index by index — the matrix product as a
  sum over the contracted coordinate, a reduction as a sum over the batch, the variance's guard resolved because the
  batch size is positive — is the same network. No law beyond reading each operation at an index is used: the two sides
  add and multiply in the same association, and a sum over a finite index type does not depend on how it is tiled.
  The precondition is never opened. The idealization rewrote nothing, so the kernel's idealized program is its own text.
-/
import proofs.«143171_j21096879358070_2_alg».proof.Defs
import proofs.«143171_j21096879358070_2_alg».proof.Proof.Gen.Kernel
import proofs.«143171_j21096879358070_2_alg».proof.Proof.Gen.Kernel.Frame
import proofs.«143171_j21096879358070_2_alg».proof.Proof.Gen.KernelIdeal
import proofs.«143171_j21096879358070_2_alg».proof.Proof.Gen.KernelIdeal.Frame
import proofs.«143171_j21096879358070_2_alg».proof.Proof.Gen.ReferenceIdeal
import proofs.«143171_j21096879358070_2_alg».proof.Proof.Gen.Pre_finite_inputs
import proofs.«143171_j21096879358070_2_alg».proof.Proof.KChain
import proofs.«143171_j21096879358070_2_alg».proof.Proof.RefRun
import proofs.«143171_j21096879358070_2_alg».proof.Proof.RefOut
import proofs.«143171_j21096879358070_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, and no operation of it writes an argument array. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefOut.arg0_eq _),
     (h c Cert.ReferenceIdeal.main_arg1).trans (Cert.ReferenceIdeal.RefOut.arg1_eq _),
     (h c Cert.ReferenceIdeal.main_arg2).trans (Cert.ReferenceIdeal.RefOut.arg2_eq _),
     (h c Cert.ReferenceIdeal.main_arg3).trans (Cert.ReferenceIdeal.RefOut.arg3_eq _),
     (h c Cert.ReferenceIdeal.main_arg4).trans (Cert.ReferenceIdeal.RefOut.arg4_eq _),
     (h c Cert.ReferenceIdeal.main_arg5).trans (Cert.ReferenceIdeal.RefOut.arg5_eq _),
     (h c Cert.ReferenceIdeal.main_arg6).trans (Cert.ReferenceIdeal.RefOut.arg6_eq _),
     (h c Cert.ReferenceIdeal.main_arg7).trans (Cert.ReferenceIdeal.RefOut.arg7_eq _),
     (h c Cert.ReferenceIdeal.main_arg8).trans (Cert.ReferenceIdeal.RefOut.arg8_eq _),
     (h c Cert.ReferenceIdeal.main_arg9).trans (Cert.ReferenceIdeal.RefOut.arg9_eq _),
     (h c Cert.ReferenceIdeal.main_arg10).trans (Cert.ReferenceIdeal.RefOut.arg10_eq _),
     (h c Cert.ReferenceIdeal.main_arg11).trans (Cert.ReferenceIdeal.RefOut.arg11_eq _),
     (h c Cert.ReferenceIdeal.main_arg12).trans (Cert.ReferenceIdeal.RefOut.arg12_eq _),
     (h c Cert.ReferenceIdeal.main_arg13).trans (Cert.ReferenceIdeal.RefOut.arg13_eq _)⟩)
    (Cert.ReferenceIdeal.RefRun.run_main (F := Ideal) m ρ)

/-- From memories agreeing on the arguments both idealized programs end with the network of the argument arrays in their
    result buffers. -/
theorem algebraic : Cert.algebraic_KernelIdeal_ReferenceIdeal := by
  intro m ρ m' ρ' _ hagree
  refine ⟨fun c => Cert.Mlp.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.KChain.run m ρ, ?_⟩
  refine (θ_run Cert.ReferenceIdeal.defs _ _).mono (fun r h c => ⟨?_,
     (h c Cert.ReferenceIdeal.main_arg0).trans (Cert.ReferenceIdeal.RefOut.arg0_eq _),
     (h c Cert.ReferenceIdeal.main_arg1).trans (Cert.ReferenceIdeal.RefOut.arg1_eq _),
     (h c Cert.ReferenceIdeal.main_arg2).trans (Cert.ReferenceIdeal.RefOut.arg2_eq _),
     (h c Cert.ReferenceIdeal.main_arg3).trans (Cert.ReferenceIdeal.RefOut.arg3_eq _),
     (h c Cert.ReferenceIdeal.main_arg4).trans (Cert.ReferenceIdeal.RefOut.arg4_eq _),
     (h c Cert.ReferenceIdeal.main_arg5).trans (Cert.ReferenceIdeal.RefOut.arg5_eq _),
     (h c Cert.ReferenceIdeal.main_arg6).trans (Cert.ReferenceIdeal.RefOut.arg6_eq _),
     (h c Cert.ReferenceIdeal.main_arg7).trans (Cert.ReferenceIdeal.RefOut.arg7_eq _),
     (h c Cert.ReferenceIdeal.main_arg8).trans (Cert.ReferenceIdeal.RefOut.arg8_eq _),
     (h c Cert.ReferenceIdeal.main_arg9).trans (Cert.ReferenceIdeal.RefOut.arg9_eq _),
     (h c Cert.ReferenceIdeal.main_arg10).trans (Cert.ReferenceIdeal.RefOut.arg10_eq _),
     (h c Cert.ReferenceIdeal.main_arg11).trans (Cert.ReferenceIdeal.RefOut.arg11_eq _),
     (h c Cert.ReferenceIdeal.main_arg12).trans (Cert.ReferenceIdeal.RefOut.arg12_eq _),
     (h c Cert.ReferenceIdeal.main_arg13).trans (Cert.ReferenceIdeal.RefOut.arg13_eq _)⟩)
    (Cert.ReferenceIdeal.RefRun.run_main (F := Ideal) m' ρ')
  obtain ⟨e0, e1, e2, e3, e4, e5, e6, e7, e8, e9, e10, e11, e12, e13⟩ := hagree c
  rw [h c Cert.ReferenceIdeal.main_v57, Cert.ReferenceIdeal.RefOut.out_eq, Cert.ReferenceIdeal.RefValue.out_eq_net]
  show Cert.Mlp.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
